-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2x800000 : Shape := ⟨2, ![2, 800000]⟩
abbrev S768x128 : Shape := ⟨2, ![768, 128]⟩
abbrev S128 : Shape := ⟨1, ![128]⟩
abbrev S128x128 : Shape := ⟨2, ![128, 128]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x768 .f32) (main_arg1 : IVec S2x800000 32) (main_arg2 : FVec F S768x128 .f32) (main_arg3 : FVec F S128 .f32) (main_arg4 : FVec F S128x128 .f32) (main_arg5 : FVec F S128 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S768x128 .f32 := Host.absf main_arg2
  let main_cst_0 : FVec F S_ .f32 := constant S_ .f32 0x7F800000#32
  let main_v5 : FVec F S768x128 .f32 := broadcastInDim S768x128 ![] bcast_S_S768x128 main_cst_0
  let main_v6 : IVec S768x128 1 := cmpf .olt main_v4 main_v5
  let main_c_1 : IVec S_ 1 := constantI S_ 1 1#1
  let main_v7 : IVec S_ 1 := (fun x v => Host.reduce IntOp.andi x v reducesTo_S768x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x768 : Shape := ⟨2, ![50000, 768]⟩
abbrev S2x800000 : Shape := ⟨2, ![2, 800000]⟩
abbrev S768x128 : Shape := ⟨2, ![768, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x768 : Shape := ⟨2, ![2000, 768]⟩
abbrev S2000x128 : Shape := ⟨2, ![2000, 128]⟩
abbrev S850000x128 : Shape := ⟨2, ![850000, 128]⟩
abbrev S1x128 : Shape := ⟨2, ![1, 128]⟩

abbrev nBuf : Space → Nat
  | .hbm => 114
  | .vmem => 10
  | .smem => 0
  | _ => 0

abbrev bufTy : (tb : Table) → Fin (tcTables nBuf tb) → BufTy
  | .hbm, ⟨0, _⟩ => ⟨S50000x768, .f32⟩
  | .hbm, ⟨1, _⟩ => ⟨S2x800000, .i32⟩
  | .hbm, ⟨2, _⟩ => ⟨S768x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S850000x1, .f32⟩
  | .hbm, ⟨54, _⟩ => ⟨S50000x128, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x128, .f32⟩
  | .hbm, ⟨64, _⟩ => ⟨S850000x128, .f32⟩
  | .hbm, ⟨65, _⟩ => ⟨S850000x128, .f32⟩
  | .hbm, ⟨66, _⟩ => ⟨S_, .f32⟩
  | .hbm, ⟨67, _⟩ => ⟨S50000x128, .f32⟩
  | .hbm, ⟨68, _⟩ => ⟨S850000x1, .i32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S_, .f32⟩
  | .hbm, ⟨75, _⟩ => ⟨S50000x128, .f32⟩
  | .hbm, ⟨76, _⟩ => ⟨S50000x128, .i1⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000x128, .f32⟩
  | .hbm, ⟨91, _⟩ => ⟨S850000x128, .f32⟩
  | .hbm, ⟨92, _⟩ => ⟨S850000x128, .f32⟩
  | .hbm, ⟨93, _⟩ => ⟨S_, .f32⟩
  | .hbm, ⟨94, _⟩ => ⟨S50000x128, .f32⟩
  | .hbm, ⟨95, _⟩ => ⟨S850000x1, .i32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S_, .f32⟩
  | .hbm, ⟨102, _⟩ => ⟨S50000x128, .f32⟩
  | .hbm, ⟨103, _⟩ => ⟨S50000x128, .i1⟩
  | .hbm, ⟨104, _⟩ => ⟨S_, .f32⟩
  | .hbm, ⟨105, _⟩ => ⟨S50000x128, .f32⟩
  | .hbm, ⟨106, _⟩ => ⟨S50000x128, .f32⟩
  | .hbm, ⟨107, _⟩ => ⟨S50000x128, .f32⟩
  | .hbm, ⟨108, _⟩ => ⟨S_, .f32⟩
  | .hbm, ⟨109, _⟩ => ⟨S128, .f32⟩
  | .hbm, ⟨110, _⟩ => ⟨S_, .f32⟩
  | .hbm, ⟨111, _⟩ => ⟨S128, .f32⟩
  | .hbm, ⟨112, _⟩ => ⟨S128, .f32⟩
  | .hbm, ⟨113, _⟩ => ⟨S1x128, .f32⟩
  | .local _ .vmem, ⟨0, _⟩ => ⟨S2000x768, .f32⟩
  | .local _ .vmem, ⟨1, _⟩ => ⟨S2000x768, .f32⟩
  | .local _ .vmem, ⟨2, _⟩ => ⟨S768x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_c_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_call2_cst : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v50 : Ref sig .tc := ⟨.hbm, 80, rfl⟩
abbrev main_v51 : Ref sig .tc := ⟨.hbm, 81, rfl⟩
abbrev main_c_12 : Ref sig .tc := ⟨.hbm, 82, rfl⟩
abbrev main_v52 : Ref sig .tc := ⟨.hbm, 83, rfl⟩
abbrev main_v53 : Ref sig .tc := ⟨.hbm, 84, rfl⟩
abbrev main_c_13 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_14 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_15 : Ref sig .tc := ⟨.hbm, 100, rfl⟩
abbrev main_call3_cst : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_v67 : Ref sig .tc := ⟨.hbm, 107, rfl⟩
abbrev main_cst_16 : Ref sig .tc := ⟨.hbm, 108, rfl⟩
abbrev main_v68 : Ref sig .tc := ⟨.hbm, 109, rfl⟩
abbrev main_cst_17 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x128_S768x128_0_0 : ∀ a, (![0, 0] : Fin 2 → Nat) a + S768x128.size a ≤ S768x128.size a
  h_S768x128 : 0 < S768x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  reducesTo_S50000x128_S128_d0 : S50000x128.ReducesTo [0] S128
  h_S_ : 0 < S_.numel
  bcast_S_S128 : S_.BroadcastsInDim S128 (![] : Fin 0 → Fin S128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x768_S768x128_S2000x128_1_0_0_1_n_n_wf : DotDims.WF S2000x768 S768x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S50000x768.size a
  hwx0_0 : ∀ i : grid0.Coords, EltTy.bits .f32 = 32 ∨ (Rect.block (s := S50000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .f32 = 32 ∨ (Rect.block (s := S768x128) S768x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x768_S768x128_S2000x128_1_0_0_1_n_n : DotDims S2000x768 S768x128 S2000x128 where
  lhsContracting := [1]
  rhsContracting := [0]
  lhsNonContracting := [0]
  rhsNonContracting := [1]
  lhsBatch := []
  rhsBatch := []
  wf := dot_S2000x768_S768x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x768 : Shape := ⟨2, ![50000, 768]⟩
abbrev S2x800000 : Shape := ⟨2, ![2, 800000]⟩
abbrev S768x128 : Shape := ⟨2, ![768, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S50000x128 : Shape := ⟨2, ![50000, 128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 158
  | .vmem => 0
  | .smem => 0
  | _ => 0

abbrev hbmTy0_0 (i : Nat) : BufTy := match i % 128 with
  | 0 => ⟨S50000x768, .f32⟩
  | 1 => ⟨S2x800000, .i32⟩
  | 2 => ⟨S768x128, .f32⟩
  | 3 => ⟨S128, .f32⟩
  | 4 => ⟨S128x128, .f32⟩
  | 5 => ⟨S128, .f32⟩
  | 6 => ⟨S1x800000, .i32⟩
  | 7 => ⟨S800000, .i32⟩
  | 8 => ⟨S1x800000, .i32⟩
  | 9 => ⟨S800000, .i32⟩
  | 10 => ⟨S50000x128, .f32⟩
  | 11 => ⟨S50000, .i32⟩
  | 12 => ⟨S850000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x128, .f32⟩
  | 63 => ⟨S850000x1, .f32⟩
  | 64 => ⟨S850000x128, .f32⟩
  | 65 => ⟨S850000x128, .f32⟩
  | 66 => ⟨S_, .f32⟩
  | 67 => ⟨S50000x128, .f32⟩
  | 68 => ⟨S850000x1, .i32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S_, .f32⟩
  | 75 => ⟨S50000x128, .f32⟩
  | 76 => ⟨S50000x128, .i1⟩
  | 77 => ⟨S_, .f32⟩
  | 78 => ⟨S50000x128, .f32⟩
  | 79 => ⟨S50000x128, .f32⟩
  | 80 => ⟨S50000x128, .f32⟩
  | 81 => ⟨S50000x128, .f32⟩
  | 82 => ⟨S50000, .i32⟩
  | 83 => ⟨S850000, .i32⟩
  | 84 => ⟨S850000, .i32⟩
  | 85 => ⟨S_, .f32⟩
  | 86 => ⟨S850000, .f32⟩
  | 87 => ⟨S_, .f32⟩
  | 88 => ⟨S50000, .f32⟩
  | 89 => ⟨S850000x1, .i32⟩
  | 90 => ⟨S50000, .f32⟩
  | 91 => ⟨S_, .f32⟩
  | 92 => ⟨S50000, .f32⟩
  | 93 => ⟨S50000, .i1⟩
  | 94 => ⟨S_, .f32⟩
  | 95 => ⟨S_, .f32⟩
  | 96 => ⟨S50000, .f32⟩
  | 97 => ⟨S50000, .f32⟩
  | 98 => ⟨S_, .f32⟩
  | 99 => ⟨S50000, .f32⟩
  | 100 => ⟨S50000, .i1⟩
  | 101 => ⟨S50000, .f32⟩
  | 102 => ⟨S_, .f32⟩
  | 103 => ⟨S_, .f32⟩
  | 104 => ⟨S50000, .f32⟩
  | 105 => ⟨S50000, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000, .f32⟩
  | 124 => ⟨S850000, .f32⟩
  | 125 => ⟨S_, .i32⟩
  | 126 => ⟨S850000, .i32⟩
  | 127 => ⟨S850000, .i1⟩
  | _ => ⟨S50000x768, .f32⟩

abbrev hbmTy0_1 (i : Nat) : BufTy := match i % 128 with
  | 0 => ⟨S_, .i32⟩
  | 1 => ⟨S850000, .i32⟩
  | 2 => ⟨S850000, .i32⟩
  | 3 => ⟨S850000, .i32⟩
  | 4 => ⟨S850000x1, .i32⟩
  | 5 => ⟨S850000x128, .f32⟩
  | 6 => ⟨S850000x1, .f32⟩
  | 7 => ⟨S850000x128, .f32⟩
  | 8 => ⟨S850000x128, .f32⟩
  | 9 => ⟨S_, .f32⟩
  | 10 => ⟨S50000x128, .f32⟩
  | 11 => ⟨S850000x1, .i32⟩
  | 12 => ⟨S50000x128, .f32⟩
  | 13 => ⟨S1x128, .f32⟩
  | 14 => ⟨S50000x128, .f32⟩
  | 15 => ⟨S50000x128, .f32⟩
  | 16 => ⟨S_, .f32⟩
  | 17 => ⟨S_, .f32⟩
  | 18 => ⟨S50000x128, .f32⟩
  | 19 => ⟨S50000x128, .i1⟩
  | 20 => ⟨S_, .f32⟩
  | 21 => ⟨S50000x128, .f32⟩
  | 22 => ⟨S50000x128, .f32⟩
  | 23 => ⟨S50000x128, .f32⟩
  | 24 => ⟨S_, .f32⟩
  | 25 => ⟨S128, .f32⟩
  | 26 => ⟨S_, .f32⟩
  | 27 => ⟨S128, .f32⟩
  | 28 => ⟨S128, .f32⟩
  | 29 => ⟨S1x128, .f32⟩
  | _ => ⟨S50000x768, .f32⟩

abbrev hbmTy (i : Nat) : BufTy := match i / 128 with
  | 0 => hbmTy0_0 i
  | 1 => hbmTy0_1 i
  | _ => ⟨S50000x768, .f32⟩

abbrev bufTy : (tb : Table) → Fin (tcTables nBuf tb) → BufTy
  | .hbm, ⟨i, _⟩ => hbmTy i
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_call1_v0 : Ref sig .tc := ⟨.hbm, 32, rfl⟩
abbrev main_call1_v1 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_call2_cst : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_12 : Ref sig .tc := ⟨.hbm, 85, rfl⟩
abbrev main_v55 : Ref sig .tc := ⟨.hbm, 86, rfl⟩
abbrev main_cst_13 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_14 : Ref sig .tc := ⟨.hbm, 91, rfl⟩
abbrev main_v59 : Ref sig .tc := ⟨.hbm, 92, rfl⟩
abbrev main_v60 : Ref sig .tc := ⟨.hbm, 93, rfl⟩
abbrev main_cst_15 : Ref sig .tc := ⟨.hbm, 94, rfl⟩
abbrev main_call3_v0 : Ref sig .tc := ⟨.hbm, 95, rfl⟩
abbrev main_call3_v1 : Ref sig .tc := ⟨.hbm, 96, rfl⟩
abbrev main_v61 : Ref sig .tc := ⟨.hbm, 97, rfl⟩
abbrev main_cst_16 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_17 : Ref sig .tc := ⟨.hbm, 102, rfl⟩
abbrev main_call4_v0 : Ref sig .tc := ⟨.hbm, 103, rfl⟩
abbrev main_call4_v1 : Ref sig .tc := ⟨.hbm, 104, rfl⟩
abbrev main_v65 : Ref sig .tc := ⟨.hbm, 105, rfl⟩
abbrev main_c_18 : Ref sig .tc := ⟨.hbm, 106, rfl⟩
abbrev main_v66 : Ref sig .tc := ⟨.hbm, 107, rfl⟩
abbrev main_v67 : Ref sig .tc := ⟨.hbm, 108, rfl⟩
abbrev main_c_19 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_c_20 : Ref sig .tc := ⟨.hbm, 115, rfl⟩
abbrev main_v73 : Ref sig .tc := ⟨.hbm, 116, rfl⟩
abbrev main_v74 : Ref sig .tc := ⟨.hbm, 117, rfl⟩
abbrev main_c_21 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_c_22 : Ref sig .tc := ⟨.hbm, 125, rfl⟩
abbrev main_v81 : Ref sig .tc := ⟨.hbm, 126, rfl⟩
abbrev main_v82 : Ref sig .tc := ⟨.hbm, 127, rfl⟩
abbrev main_c_23 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_24 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_25 : Ref sig .tc := ⟨.hbm, 144, rfl⟩
abbrev main_call5_cst : Ref sig .tc := ⟨.hbm, 145, rfl⟩
abbrev main_call5_v0 : Ref sig .tc := ⟨.hbm, 146, rfl⟩
abbrev main_call5_v1 : Ref sig .tc := ⟨.hbm, 147, rfl⟩
abbrev main_call5_v2 : Ref sig .tc := ⟨.hbm, 148, rfl⟩
abbrev main_call5_v3 : Ref sig .tc := ⟨.hbm, 149, rfl⟩
abbrev main_call5_v4 : Ref sig .tc := ⟨.hbm, 150, rfl⟩
abbrev main_v97 : Ref sig .tc := ⟨.hbm, 151, rfl⟩
abbrev main_cst_26 : Ref sig .tc := ⟨.hbm, 152, rfl⟩
abbrev main_v98 : Ref sig .tc := ⟨.hbm, 153, rfl⟩
abbrev main_cst_27 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  dot_S50000x768_S768x128_S50000x128_1_0_0_1_n_n_wf : DotDims.WF S50000x768 S768x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []

variable [Facts₀]

def dot_S50000x768_S768x128_S50000x128_1_0_0_1_n_n : DotDims S50000x768 S768x128 S50000x128 where
  lhsContracting := [1]
  rhsContracting := [0]
  lhsNonContracting := [0]
  rhsNonContracting := [1]
  lhsBatch := []
  rhsBatch := []
  wf := dot_S50000x768_S768x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run, with its result named.

  The host program is twelve segments: stretches of host operations around two launches of a row-tiled
  matrix-product kernel. Every buffer's contents at each segment boundary is a fold from the launch memory
  (`W0` … `W12` of the generated frame module: a stretch applies its operations in order; a launch replaces
  its arrays by what its write-backs leave and keeps every other buffer). Every weakly fair execution
  terminates, nothing faulting, with each unscoped buffer at the last boundary's contents; read at the result
  buffer `%71` and at the six argument arrays, that is the statement below.
-/
import proofs.«116063_j71648644432367_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's host program terminates, nothing faulting, with the result
    buffer at the last boundary's contents and the six argument arrays as launched. -/
theorem run : θ_run defs (onTc (τ := τ) (main (F := F))) ⟨m, fun _ => 0, ρ⟩ (fun r => ∀ c : Dev nD,
      r.2.mem ((c.tc : Thread nD τ).loc main_v71) = W12 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v71 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c)⟩)

end Cert.KernelIdeal.Named

end
-- ==== Proof.Stages.lean ====
/-
  The host side of the two-layer graph convolution, as named functions of the arrays.

  With E = 800000 edges and n = 50000 nodes, the edge list's two rows, each followed by the n self loops
  0, 1, …, n − 1, are the source ids s and the target ids d (850000 entries each). The degree of node v is the
  number of entries of d equal to v (a scatter-add of ones); its inverse square root, with 0 where the degree is
  not positive, is gathered at s and at d, and the product of the two is the coefficient of each entry.
  One layer gathers the rows h[s] of a 50000 × 128 array, scales row j by coefficient j, adds row j into row d[j]
  of a zero array, adds the bias to every row, and applies the leaky rectifier x ↦ x if x ≥ 0, slope · x otherwise.
  The result of the program is the mean over the 50000 rows of the second layer's output, as a 1 × 128 array.
  A negative id is read from the end (id + 50000) before a gather, as the host's indexing does.
-/
import proofs.«116063_j71648644432367_1_alg».proof.Proof.Gen.KernelIdeal
import Idealize.ShloMosaic.PureOps.Ideal

noncomputable section

namespace Cert.KernelIdeal.Graph

open Cert.KernelIdeal Cert.KernelIdeal.Gen Idealize.ShloMosaic

variable {F : FTy → Type} [FloatOps F]

/-- An array of a shape and element type, as the host operations take it. -/
abbrev A (F : FTy → Type) [FloatOps F] (S : Shape) (e : EltTy) : Type := (⟨S, e⟩ : BufTy).Contents (Elt F)

/-- Row `r` of the edge list flattened, then the self loops: the source ids (r = 0). -/
def sources (e : A F S2x800000 .i32) : A F S850000 .i32 :=
  (fun a b => concatenate S850000 0 [⟨S800000, a⟩, ⟨S50000, b⟩] concatenates_S800000_S50000_S850000_d0 : A F S800000 .i32 → A F S50000 .i32 → A F S850000 .i32)
    (shapeCast S800000 ((extractStridedSlice S1x800000 ![0, 0] · slices_S2x800000_S1x800000_0_0 : A F S2x800000 .i32 → A F S1x800000 .i32) e) shapeCasts_S1x800000_S800000)
    (iotaInDim S50000 32 0)

/-- The target ids (r = 1). -/
def targets (e : A F S2x800000 .i32) : A F S850000 .i32 :=
  (fun a b => concatenate S850000 0 [⟨S800000, a⟩, ⟨S50000, b⟩] concatenates_S800000_S50000_S850000_d0 : A F S800000 .i32 → A F S50000 .i32 → A F S850000 .i32)
    (shapeCast S800000 ((extractStridedSlice S1x800000 ![1, 0] · slices_S2x800000_S1x800000_1_0 : A F S2x800000 .i32 → A F S1x800000 .i32) e) shapeCasts_S1x800000_S800000)
    (iotaInDim S50000 32 0)

/-- The ids as a gather takes them: a negative id counts from the end, and the list becomes a column. -/
def column (s : A F S850000 .i32) : A F S850000x1 .i32 :=
  (broadcastInDim S850000x1 ![0] bcast_S850000_S850000x1_0 : A F S850000 .i32 → A F S850000x1 .i32)
    ((select : A F S850000 .i1 → A F S850000 .i32 → A F S850000 .i32 → A F S850000 .i32)
      ((cmpi .slt : A F S850000 .i32 → A F S850000 .i32 → A F S850000 .i1) s
        ((broadcastInDim S850000 ![] bcast_S_S850000 : A F S_ .i32 → A F S850000 .i32) (constantI S_ 32 0#32)))
      ((addi : A F S850000 .i32 → A F S850000 .i32 → A F S850000 .i32) s
        ((broadcastInDim S850000 ![] bcast_S_S850000 : A F S_ .i32 → A F S850000 .i32) (constantI S_ 32 50000#32)))
      s)

/-- The degree of every node: ones added at the target ids. -/
def degree (d : A F S850000 .i32) : A F S50000 .f32 :=
  (fun x i u => Host.scatterAdd scatter_S50000_S850000x1_S850000_n_0_0_1 x i u : A F S50000 .f32 → A F S850000x1 .i32 → A F S850000 .f32 → A F S50000 .f32)
    ((broadcastInDim S50000 ![] bcast_S_S50000 : A F S_ .f32 → A F S50000 .f32) (constant S_ .f32 0x00000000#32))
    ((broadcastInDim S850000x1 ![0] bcast_S850000_S850000x1_0 : A F S850000 .i32 → A F S850000x1 .i32) d)
    ((broadcastInDim S850000 ![] bcast_S_S850000 : A F S_ .f32 → A F S850000 .f32) (constant S_ .f32 0x3F800000#32))

/-- Is the degree positive. -/
def positive (g : A F S50000 .f32) : A F S50000 .i1 :=
  (cmpf .ogt : A F S50000 .f32 → A F S50000 .f32 → A F S50000 .i1) g
    ((broadcastInDim S50000 ![] bcast_S_S50000 : A F S_ .f32 → A F S50000 .f32) (constant S_ .f32 0x00000000#32))

/-- The inverse square root of the degree where it is positive, 0 elsewhere. -/
def invSqrt (g : A F S50000 .f32) : A F S50000 .f32 :=
  (select : A F S50000 .i1 → A F S50000 .f32 → A F S50000 .f32 → A F S50000 .f32) (positive g)
    ((Host.rsqrt : A F S50000 .f32 → A F S50000 .f32)
      ((select : A F S50000 .i1 → A F S50000 .f32 → A F S50000 .f32 → A F S50000 .f32) (positive g) g
        ((broadcastInDim S50000 ![] bcast_S_S50000 : A F S_ .f32 → A F S50000 .f32) (id (constant S_ .f32 0x3F800000#32)))))
    ((broadcastInDim S50000 ![] bcast_S_S50000 : A F S_ .f32 → A F S50000 .f32) (id (constant S_ .f32 0x00000000#32)))

/-- The coefficient of every entry: the inverse square roots of the degrees at its two ends, multiplied; a column. -/
def coefficients (s d : A F S850000 .i32) : A F S850000x1 .f32 :=
  (broadcastInDim S850000x1 ![0] bcast_S850000_S850000x1_0 : A F S850000 .f32 → A F S850000x1 .f32)
    ((mulf : A F S850000 .f32 → A F S850000 .f32 → A F S850000 .f32)
      ((fun x i => Host.gather gather_S50000_S850000x1_S850000_n_0_n_n_0_1_1 x i : A F S50000 .f32 → A F S850000x1 .i32 → A F S850000 .f32)
        (invSqrt (degree d)) (column s))
      ((fun x i => Host.gather gather_S50000_S850000x1_S850000_n_0_n_n_0_1_1 x i : A F S50000 .f32 → A F S850000x1 .i32 → A F S850000 .f32)
        (invSqrt (degree d)) (column d)))

/-- The rows gathered at the sources, scaled, added at the targets, plus the bias: one layer before its rectifier. -/
def aggregate (h : A F S50000x128 .f32) (s d : A F S850000 .i32) (w : A F S850000x1 .f32) (b : A F S128 .f32) : A F S50000x128 .f32 :=
  (addf : A F S50000x128 .f32 → A F S50000x128 .f32 → A F S50000x128 .f32)
    ((fun x i u => Host.scatterAdd scatter_S50000x128_S850000x1_S850000x128_1_0_0_1 x i u : A F S50000x128 .f32 → A F S850000x1 .i32 → A F S850000x128 .f32 → A F S50000x128 .f32)
      ((broadcastInDim S50000x128 ![] bcast_S_S50000x128 : A F S_ .f32 → A F S50000x128 .f32) (constant S_ .f32 0x00000000#32))
      ((broadcastInDim S850000x1 ![0] bcast_S850000_S850000x1_0 : A F S850000 .i32 → A F S850000x1 .i32) d)
      ((mulf : A F S850000x128 .f32 → A F S850000x128 .f32 → A F S850000x128 .f32)
        ((fun x i => Host.gather gather_S50000x128_S850000x1_S850000x128_1_0_n_n_0_1_1128 x i : A F S50000x128 .f32 → A F S850000x1 .i32 → A F S850000x128 .f32)
          h (column s))
        ((broadcastInDim S850000x128 ![0, 1] bcast_S850000x1_S850000x128_0_1 : A F S850000x1 .f32 → A F S850000x128 .f32) w)))
    ((broadcastInDim S50000x128 ![0, 1] bcast_S1x128_S50000x128_0_1 : A F S1x128 .f32 → A F S50000x128 .f32)
      ((broadcastInDim S1x128 ![1] bcast_S128_S1x128_1 : A F S128 .f32 → A F S1x128 .f32) b))

/-- The leaky rectifier with the slope the programs use: x where x ≥ 0, slope · x elsewhere. -/
def rectified (x : A F S50000x128 .f32) : A F S50000x128 .f32 :=
  (select : A F S50000x128 .i1 → A F S50000x128 .f32 → A F S50000x128 .f32 → A F S50000x128 .f32)
    ((cmpf .oge : A F S50000x128 .f32 → A F S50000x128 .f32 → A F S50000x128 .i1) x
      ((broadcastInDim S50000x128 ![] bcast_S_S50000x128 : A F S_ .f32 → A F S50000x128 .f32) (constant S_ .f32 0x00000000#32)))
    x
    ((mulf : A F S50000x128 .f32 → A F S50000x128 .f32 → A F S50000x128 .f32)
      ((broadcastInDim S50000x128 ![] bcast_S_S50000x128 : A F S_ .f32 → A F S50000x128 .f32) (id (constant S_ .f32 0x3C23D70A#32)))
      x)

/-- One layer after the product with its weights. -/
def layer (h : A F S50000x128 .f32) (s d : A F S850000 .i32) (w : A F S850000x1 .f32) (b : A F S128 .f32) : A F S50000x128 .f32 :=
  rectified (aggregate h s d w b)

/-- The mean of the 50000 rows, as a 1 × 128 array. -/
def meanRows (h : A F S50000x128 .f32) : A F S1x128 .f32 :=
  (broadcastInDim S1x128 ![1] bcast_S128_S1x128_1 : A F S128 .f32 → A F S1x128 .f32)
    ((Host.divf : A F S128 .f32 → A F S128 .f32 → A F S128 .f32)
      ((fun x v => Host.reduceAdd x v reducesTo_S50000x128_S128_d0 h_S_ : A F S50000x128 .f32 → A F S_ .f32 → A F S128 .f32) h (constant S_ .f32 0x00000000#32))
      ((broadcastInDim S128 ![] bcast_S_S128 : A F S_ .f32 → A F S128 .f32) (constant S_ .f32 0x47435000#32)))

/-- The plain product of two whole arrays, rows × contraction times contraction × columns, on the extended reals. -/
abbrev product (M K N : Nat) (l : FVec Ideal ⟨2, ![M, K]⟩ .f32) (r : FVec Ideal ⟨2, ![K, N]⟩ .f32) : FVec Ideal ⟨2, ![M, N]⟩ .f32 :=
  Host.dotGeneral (F := Ideal) (DotDims.plain M K N) none l r

/-- The whole program on the extended reals: two layers, each a plain product with its weights followed by the
    aggregation over the graph, and the mean of the rows. -/
def network (x : A Ideal S50000x768 .f32) (e : A Ideal S2x800000 .i32) (w1 : A Ideal S768x128 .f32) (b1 : A Ideal S128 .f32)
    (w2 : A Ideal S128x128 .f32) (b2 : A Ideal S128 .f32) : A Ideal S1x128 .f32 :=
  meanRows (layer (product 50000 128 128
      (layer (product 50000 768 128 x w1) (sources e) (targets e) (coefficients (sources e) (targets e)) b1) w2)
    (sources e) (targets e) (coefficients (sources e) (targets e)) b2)

end Cert.KernelIdeal.Graph

end
-- ==== Proof.Stretches.lean ====
/-
  What each stretch of host operations of the kernel's program computes, as the named stage functions.

  The host program has three stretches, cut by the two launches. From ANY contents V of the buffers:
  the first stretch leaves the source ids, the target ids and the coefficient column as functions of the edge
  list alone, and touches no argument; the second leaves one layer (aggregation, bias, rectifier) of the first
  launch's output array, and keeps the ids, the coefficients and the arguments it does not write; the third
  leaves the mean of the rows of the second layer of the second launch's output array. Each is the fold of
  the stretch's operations read at one buffer: an operation's result at its own buffer is its function of its
  operands' contents, and at any other buffer what was there.
-/
import proofs.«116063_j71648644432367_1_alg».proof.Proof.Gen.KernelIdeal.Launch
import proofs.«116063_j71648644432367_1_alg».proof.Proof.Stages
import Idealize.ShloMosaic.Lib.StableHlo.Run

set_option maxRecDepth 16384

noncomputable section

namespace Cert.KernelIdeal.Stretches

open Cert.KernelIdeal Cert.KernelIdeal.Gen Cert.KernelIdeal.Graph
open Idealize.ShloMosaic Idealize.ShloMosaic.TcCoe Idealize.SL.Sem Idealize.ShloMosaic.StableHlo

variable {F : FTy → Type} [FloatOps F]

/-! ## The first stretch: ids and coefficients from the edge list -/

theorem first_sources (V : Valuation τ sig (Elt F)) :
    after hostOps0_4 (after hostOps0_3 (after hostOps0_2 (after hostOps0_1 (after hostOps0 (V))))) (Proc.devRef .tc main_v5) = sources (V (Proc.devRef .tc main_arg1)) := by
  after_results_simp
  rfl

theorem first_targets (V : Valuation τ sig (Elt F)) :
    after hostOps0_4 (after hostOps0_3 (after hostOps0_2 (after hostOps0_1 (after hostOps0 (V))))) (Proc.devRef .tc main_v6) = targets (V (Proc.devRef .tc main_arg1)) := by
  after_results_simp
  rfl

theorem first_coefficients (V : Valuation τ sig (Elt F)) :
    after hostOps0_4 (after hostOps0_3 (after hostOps0_2 (after hostOps0_1 (after hostOps0 (V))))) (Proc.devRef .tc main_v33)
      = coefficients (sources (V (Proc.devRef .tc main_arg1))) (targets (V (Proc.devRef .tc main_arg1))) := by
  after_results_simp
  rfl

theorem first_keeps_arg0 (V : Valuation τ sig (Elt F)) :
    after hostOps0_4 (after hostOps0_3 (after hostOps0_2 (after hostOps0_1 (after hostOps0 (V))))) (Proc.devRef .tc main_arg0) = V (Proc.devRef .tc main_arg0) := by
  after_results_simp

theorem first_keeps_arg2 (V : Valuation τ sig (Elt F)) :
    after hostOps0_4 (after hostOps0_3 (after hostOps0_2 (after hostOps0_1 (after hostOps0 (V))))) (Proc.devRef .tc main_arg2) = V (Proc.devRef .tc main_arg2) := by
  after_results_simp

theorem first_keeps_arg3 (V : Valuation τ sig (Elt F)) :
    after hostOps0_4 (after hostOps0_3 (after hostOps0_2 (after hostOps0_1 (after hostOps0 (V))))) (Proc.devRef .tc main_arg3) = V (Proc.devRef .tc main_arg3) := by
  after_results_simp

theorem first_keeps_arg4 (V : Valuation τ sig (Elt F)) :
    after hostOps0_4 (after hostOps0_3 (after hostOps0_2 (after hostOps0_1 (after hostOps0 (V))))) (Proc.devRef .tc main_arg4) = V (Proc.devRef .tc main_arg4) := by
  after_results_simp

theorem first_keeps_arg5 (V : Valuation τ sig (Elt F)) :
    after hostOps0_4 (after hostOps0_3 (after hostOps0_2 (after hostOps0_1 (after hostOps0 (V))))) (Proc.devRef .tc main_arg5) = V (Proc.devRef .tc main_arg5) := by
  after_results_simp

/-! ## The second stretch: one layer of the first launch's output -/

theorem second_layer (V : Valuation τ sig (Elt F)) :
    after hostOps1_1 (after hostOps1 (V)) (Proc.devRef .tc main_v50)
      = layer (V (Proc.devRef .tc main_v34)) (V (Proc.devRef .tc main_v5)) (V (Proc.devRef .tc main_v6))
          (V (Proc.devRef .tc main_v33)) (V (Proc.devRef .tc main_arg3)) := by
  after_results_simp
  rfl

theorem second_keeps_v5 (V : Valuation τ sig (Elt F)) :
    after hostOps1_1 (after hostOps1 (V)) (Proc.devRef .tc main_v5) = V (Proc.devRef .tc main_v5) := by
  after_results_simp

theorem second_keeps_v6 (V : Valuation τ sig (Elt F)) :
    after hostOps1_1 (after hostOps1 (V)) (Proc.devRef .tc main_v6) = V (Proc.devRef .tc main_v6) := by
  after_results_simp

theorem second_keeps_v33 (V : Valuation τ sig (Elt F)) :
    after hostOps1_1 (after hostOps1 (V)) (Proc.devRef .tc main_v33) = V (Proc.devRef .tc main_v33) := by
  after_results_simp

theorem second_keeps_arg4 (V : Valuation τ sig (Elt F)) :
    after hostOps1_1 (after hostOps1 (V)) (Proc.devRef .tc main_arg4) = V (Proc.devRef .tc main_arg4) := by
  after_results_simp

theorem second_keeps_arg5 (V : Valuation τ sig (Elt F)) :
    after hostOps1_1 (after hostOps1 (V)) (Proc.devRef .tc main_arg5) = V (Proc.devRef .tc main_arg5) := by
  after_results_simp

/-! ## The third stretch: the second layer of the second launch's output, and the mean of its rows -/

theorem third_result (V : Valuation τ sig (Elt F)) :
    after hostOps2_2 (after hostOps2_1 (after hostOps2 (V))) (Proc.devRef .tc main_v71)
      = meanRows (layer (V (Proc.devRef .tc main_v51)) (V (Proc.devRef .tc main_v5)) (V (Proc.devRef .tc main_v6))
          (V (Proc.devRef .tc main_v33)) (V (Proc.devRef .tc main_arg5))) := by
  after_results_simp
  rfl

end Cert.KernelIdeal.Stretches

end
-- ==== Proof.LibPlainDot.lean ====
/-
  A matrix product of the plain kind — rows × contraction times contraction × columns — read at an index, at the
  ideal instance.

  For the dimension numbers `DotDims.plain M K N` both the vector unit's matmul into a zero accumulator and the host's
  dot_general are, at output index (a, b), the sum over k of l (a, k) · r (k, b) on the extended reals. The sum over
  the one-axis contraction index is re-indexed by its one coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

theorem lhs0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
theorem lhs1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
theorem rhs0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
theorem rhs1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of such a product at (a, b), over the coordinate `k : Fin K`. -/
theorem sum_plain (M K N : Nat) {φ₁ φ₂ : FTy} (l : FVec Ideal ⟨2, ![M, K]⟩ φ₁) (r : FVec Ideal ⟨2, ![K, N]⟩ φ₂)
    (a : Fin M) (b : Fin N) :
    ∑ k : (DotDims.plain M K N).contr.Idx,
        l ((DotDims.plain M K N).lhsIdx (ix2 a b) k) * r ((DotDims.plain M K N).rhsIdx (ix2 a b) k)
      = ∑ k : Fin K, l (ix2 a k) * r (ix2 k b) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a b) ((contrEquiv1 (DotDims.plain M K N) K rfl rfl).symm k) = ix2 a k :=
    funext fun d => Fin.ext (by
      match d with
      | ⟨0, _⟩ => exact lhs0 M K N _ _
      | ⟨1, _⟩ => exact (lhs1 M K N _ _).trans hk)
  have er : (DotDims.plain M K N).rhsIdx (ix2 a b) ((contrEquiv1 (DotDims.plain M K N) K rfl rfl).symm k) = ix2 k b :=
    funext fun d => Fin.ext (by
      match d with
      | ⟨0, _⟩ => exact (rhs0 M K N _ _).trans hk
      | ⟨1, _⟩ => exact rhs1 M K N _ _)
  rw [el, er]

/-- The vector unit's matmul into the zero accumulator, at (a, b). -/
theorem matmul_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  subst hD
  exact (Ideal.matmul_constant_zero_apply _ prec l r (ix2 a b)).trans (sum_plain M K N l r a b)

/-- The host's dot_general, at (a, b). -/
theorem dotGeneral_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    Host.dotGeneral (F := Ideal) D prec l r (ix2 a b) = ∑ k : Fin K, l (ix2 a k) * r (ix2 k b) := by
  subst hD
  simp only [Host.dotGeneral]
  exact (Ideal.dotGeneral_apply _ prec _ l r (ix2 a b)).trans (sum_plain M K N l r a b)

end Idealize.ShloMosaic.PlainDot

end
-- ==== Proof.Tiles0.lean ====
/-
  The first launch's output array as ONE function of the arrays it reads.

  The launch tiles the 50000 rows into 25 blocks of 2000. At grid point t the body multiplies rows
  [2000 t, 2000 t + 2000) of the left array (all 768 columns) by the whole 768 × 128 right array into a zero
  accumulator and stores the 2000 × 128 block. Entry (a, b) of that block is Σ_k left (2000 t + a, k) · right (k, b),
  which is entry (2000 t + a, b) of the plain product of the two whole arrays. The 25 blocks cover every row, so
  after the launch the output array IS the plain product.
-/
import proofs.«116063_j71648644432367_1_alg».proof.Proof.Gen.KernelIdeal.Frame
import proofs.«116063_j71648644432367_1_alg».proof.Proof.LibPlainDot
import proofs.«116063_j71648644432367_1_alg».proof.Proof.Stages
import Idealize.ShloMosaic.Lib.Pipeline.Value
import Idealize.ShloMosaic.Lib.ValueIdx

set_option maxRecDepth 16384

noncomputable section

open scoped BigOperators

namespace Cert.KernelIdeal.Tiles0

open Cert.KernelIdeal Cert.KernelIdeal.Gen Idealize.ShloMosaic Idealize.ShloMosaic.TcCoe Idealize.SL.Sem
open Idealize.ShloMosaic.ValueIdx Cert.KernelIdeal.Graph
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's stored value at (a, b) of its block: the contraction sum of the two loaded blocks (narrowing the
    operands' format is the identity on the extended reals). -/
theorem stored_at (x0 : FVec Ideal S2000x768 .f32) (x1 : FVec Ideal S768x128 .f32) (a : Fin 2000) (b : Fin 128) :
    k0_pay1 (F := Ideal) x0 x1 (ix2 a b) = ∑ k : Fin 768, x0 (ix2 a k) * x1 (ix2 k b) :=
  PlainDot.matmul_plain dot_S2000x768_S768x128_S2000x128_1_0_0_1_n_n rfl none x0 x1 a b

/-- The block index maps over the 25 grid points: the left array's and the output's row block is the point,
    every column block and the right array's row block is 0. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 25 := N_0 ▸ t.isLt

/-- Row a of point t's left block is row 2000 t + a of the left array. -/
theorem left_block (c : Dev nD) (t : Fin cfg0.N) (a : Fin 2000) (k : Fin 768) :
    iblk0 V c 0 t (ix2 a k)
      = V c main_arg0 (ix2 (⟨t.val * 2000 + a.val, by have := point_lt t; omega⟩ : Fin 50000) k) := by
  obtain ⟨e0, e1, -⟩ := block_indices t
  show V c main_arg0 (((cfg0.win 0).blk t).view.emb (ix2 a k)) = _
  refine congrArg (V c main_arg0) ?_
  funext d; apply Fin.ext
  match d with
  | ⟨0, _⟩ => show win0_0.index t (0 : Fin 2) * 2000 + 1 * a.val = t.val * 2000 + a.val; omega
  | ⟨1, _⟩ => show win0_0.index t (1 : Fin 2) * 768 + 1 * k.val = k.val; omega

/-- Every point's right block is the whole right array. -/
theorem right_block (c : Dev nD) (t : Fin cfg0.N) (k : Fin 768) (b : Fin 128) :
    iblk0 V c 1 t (ix2 k b) = V c main_arg2 (ix2 k b) := by
  obtain ⟨-, -, e2, e3, -⟩ := block_indices t
  show V c main_arg2 (((cfg0.win 1).blk t).view.emb (ix2 k b)) = _
  refine congrArg (V c main_arg2) ?_
  funext d; apply Fin.ext
  match d with
  | ⟨0, _⟩ => show win0_1.index t (0 : Fin 2) * 768 + 1 * k.val = k.val; omega
  | ⟨1, _⟩ => show win0_1.index t (1 : Fin 2) * 128 + 1 * b.val = b.val; omega

/-- Entry (a, b) of point t's output block sits at (2000 t + a, b) of the output array. -/
theorem out_block (t : Fin cfg0.N) (a : Fin 2000) (b : Fin 128) :
    ((cfg0.win 2).blk t).view.emb (ix2 a b)
      = ix2 (⟨t.val * 2000 + a.val, by have := point_lt t; omega⟩ : Fin 50000) b := by
  obtain ⟨-, -, -, -, e4, e5⟩ := block_indices t
  funext d; apply Fin.ext
  match d with
  | ⟨0, _⟩ => show win0_2.index t (0 : Fin 2) * 2000 + 1 * a.val = t.val * 2000 + a.val; omega
  | ⟨1, _⟩ => show win0_2.index t (1 : Fin 2) * 128 + 1 * b.val = b.val; omega

/-- What point t writes back is block t of the plain product of the two arrays as the launch finds them. -/
theorem written_eq (c : Dev nD) (t : Fin cfg0.N) :
    (dat0 V c).flushed 2 t = ((cfg0.win 2).blk t).view.read (Elt Ideal)
      (product 50000 768 128 (V c main_arg0) (V c main_arg2)) := by
  show (cfg0.win 2).cut (grid0.coords t) ((dat0 V c).after 2 t) = _
  rw [after0_2]
  unfold out0_2
  rw [View.canon_unit_zero origin]
  simp only [View.ld_unit_zero (S := S2000x768) origin, View.ld_unit_zero (S := S768x128) origin]
  funext j
  obtain ⟨a, b, rfl⟩ : ∃ (a : Fin 2000) (b : Fin 128), j = ix2 a b := ⟨j 0, j 1, eq_ix2 j⟩
  show k0_pay1 (iblk0 V c 0 t) (iblk0 V c 1 t) (ix2 a b)
    = product 50000 768 128 (V c main_arg0) (V c main_arg2) (((cfg0.win 2).blk t).view.emb (ix2 a b))
  rw [out_block t a b]
  refine (stored_at _ _ a b).trans ?_
  refine ((PlainDot.dotGeneral_plain (DotDims.plain 50000 768 128) rfl none _ _ _ b).trans ?_).symm
  refine Finset.sum_congr rfl fun k _ => ?_
  rw [left_block V c t a k, right_block V c t k b]

/-- A row r of the output array lies in the block of point r / 2000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 2000, by rw [show cfg0.N = 25 from N_0]; omega⟩
  obtain ⟨-, -, -, -, e4, e5⟩ := block_indices t
  have ht : t.val = (i 0).val / 2000 := rfl
  refine ⟨t, flush0_2 t, ?_⟩
  show i ∈ ((View.whole main_v34).slice (win0_2.rect t)).set
  rw [View.set_slice_whole, Rect.mem_set_unit]
  intro d
  match d with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the launch the output array is the plain product of the two arrays as the launch finds them. -/
theorem array_eq (c : Dev nD) :
    (dat0 V c).arrAt 2 cfg0.N = product 50000 768 128 (V c main_arg0) (V c main_arg2) :=
  (dat0 V c).arrAt_eq_of_cover 2 _ (fun t _ => written_eq V c t) covered

end Cert.KernelIdeal.Tiles0

end
-- ==== Proof.Tiles1.lean ====
/-
  The second launch's output array as ONE function of the arrays it reads.

  The same row tiling as the first launch, now over a 50000 × 128 left array and a 128 × 128 right array: at
  grid point t the body multiplies rows [2000 t, 2000 t + 2000) of the left array by the whole right array into a
  zero accumulator and stores the 2000 × 128 block. Entry (a, b) of that block is Σ_k left (2000 t + a, k) · right (k, b),
  entry (2000 t + a, b) of the plain product of the two whole arrays; the 25 blocks cover every row, so after the
  launch the output array IS the plain product.
-/
import proofs.«116063_j71648644432367_1_alg».proof.Proof.Gen.KernelIdeal.Frame
import proofs.«116063_j71648644432367_1_alg».proof.Proof.LibPlainDot
import proofs.«116063_j71648644432367_1_alg».proof.Proof.Stages
import Idealize.ShloMosaic.Lib.Pipeline.Value
import Idealize.ShloMosaic.Lib.ValueIdx

set_option maxRecDepth 16384

noncomputable section

open scoped BigOperators

namespace Cert.KernelIdeal.Tiles1

open Cert.KernelIdeal Cert.KernelIdeal.Gen Idealize.ShloMosaic Idealize.ShloMosaic.TcCoe Idealize.SL.Sem
open Idealize.ShloMosaic.ValueIdx Cert.KernelIdeal.Graph
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's stored value at (a, b) of its block: the contraction sum of the two loaded blocks (narrowing the
    operands' format is the identity on the extended reals, and so is the cast of a shape to itself). -/
theorem stored_at (x0 : FVec Ideal S2000x128 .f32) (x1 : FVec Ideal S128x128 .f32) (a : Fin 2000) (b : Fin 128) :
    k1_pay1 (F := Ideal) x0 x1 (ix2 a b) = ∑ k : Fin 128, x0 (ix2 a k) * x1 (ix2 k b) :=
  by
  have h : k1_pay1 (F := Ideal) x0 x1
      = matmul dot_S2000x128_S128x128_S2000x128_1_0_0_1_n_n none x0 x1 (constant S2000x128 .f32 0x00000000#32) :=
    congrArg (fun y : FVec Ideal S2000x128 .f32 => matmul dot_S2000x128_S128x128_S2000x128_1_0_0_1_n_n none y x1 (constant S2000x128 .f32 0x00000000#32))
      (shapeCast_self x0 shapeCasts_S2000x128_S2000x128)
  exact (congrFun h (ix2 a b)).trans (PlainDot.matmul_plain dot_S2000x128_S128x128_S2000x128_1_0_0_1_n_n rfl none x0 x1 a b)

/-- The block index maps over the 25 grid points: the left array's and the output's row block is the point,
    every column block and the right array's row block is 0. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem point_lt (t : Fin cfg1.N) : t.val < 25 := N_1 ▸ t.isLt

/-- Row a of point t's left block is row 2000 t + a of the left array. -/
theorem left_block (c : Dev nD) (t : Fin cfg1.N) (a : Fin 2000) (k : Fin 128) :
    iblk1 V c 0 t (ix2 a k)
      = V c main_v50 (ix2 (⟨t.val * 2000 + a.val, by have := point_lt t; omega⟩ : Fin 50000) k) := by
  obtain ⟨e0, e1, -⟩ := block_indices t
  show V c main_v50 (((cfg1.win 0).blk t).view.emb (ix2 a k)) = _
  refine congrArg (V c main_v50) ?_
  funext d; apply Fin.ext
  match d with
  | ⟨0, _⟩ => show win1_0.index t (0 : Fin 2) * 2000 + 1 * a.val = t.val * 2000 + a.val; omega
  | ⟨1, _⟩ => show win1_0.index t (1 : Fin 2) * 128 + 1 * k.val = k.val; omega

/-- Every point's right block is the whole right array. -/
theorem right_block (c : Dev nD) (t : Fin cfg1.N) (k : Fin 128) (b : Fin 128) :
    iblk1 V c 1 t (ix2 k b) = V c main_arg4 (ix2 k b) := by
  obtain ⟨-, -, e2, e3, -⟩ := block_indices t
  show V c main_arg4 (((cfg1.win 1).blk t).view.emb (ix2 k b)) = _
  refine congrArg (V c main_arg4) ?_
  funext d; apply Fin.ext
  match d with
  | ⟨0, _⟩ => show win1_1.index t (0 : Fin 2) * 128 + 1 * k.val = k.val; omega
  | ⟨1, _⟩ => show win1_1.index t (1 : Fin 2) * 128 + 1 * b.val = b.val; omega

/-- Entry (a, b) of point t's output block sits at (2000 t + a, b) of the output array. -/
theorem out_block (t : Fin cfg1.N) (a : Fin 2000) (b : Fin 128) :
    ((cfg1.win 2).blk t).view.emb (ix2 a b)
      = ix2 (⟨t.val * 2000 + a.val, by have := point_lt t; omega⟩ : Fin 50000) b := by
  obtain ⟨-, -, -, -, e4, e5⟩ := block_indices t
  funext d; apply Fin.ext
  match d with
  | ⟨0, _⟩ => show win1_2.index t (0 : Fin 2) * 2000 + 1 * a.val = t.val * 2000 + a.val; omega
  | ⟨1, _⟩ => show win1_2.index t (1 : Fin 2) * 128 + 1 * b.val = b.val; omega

/-- What point t writes back is block t of the plain product of the two arrays as the launch finds them. -/
theorem written_eq (c : Dev nD) (t : Fin cfg1.N) :
    (dat1 V c).flushed 2 t = ((cfg1.win 2).blk t).view.read (Elt Ideal)
      (product 50000 128 128 (V c main_v50) (V c main_arg4)) := by
  show (cfg1.win 2).cut (grid1.coords t) ((dat1 V c).after 2 t) = _
  rw [after1_2]
  unfold out1_2
  rw [View.canon_unit_zero origin]
  simp only [View.ld_unit_zero (S := S2000x128) origin, View.ld_unit_zero (S := S128x128) origin]
  funext j
  obtain ⟨a, b, rfl⟩ : ∃ (a : Fin 2000) (b : Fin 128), j = ix2 a b := ⟨j 0, j 1, eq_ix2 j⟩
  show k1_pay1 (iblk1 V c 0 t) (iblk1 V c 1 t) (ix2 a b)
    = product 50000 128 128 (V c main_v50) (V c main_arg4) (((cfg1.win 2).blk t).view.emb (ix2 a b))
  rw [out_block t a b]
  refine (stored_at _ _ a b).trans ?_
  refine ((PlainDot.dotGeneral_plain (DotDims.plain 50000 128 128) rfl none _ _ _ b).trans ?_).symm
  refine Finset.sum_congr rfl fun k _ => ?_
  rw [left_block V c t a k, right_block V c t k b]

/-- A row r of the output array lies in the block of point r / 2000. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  let t : Fin cfg1.N := ⟨(i 0).val / 2000, by rw [show cfg1.N = 25 from N_1]; omega⟩
  obtain ⟨-, -, -, -, e4, e5⟩ := block_indices t
  have ht : t.val = (i 0).val / 2000 := rfl
  refine ⟨t, flush1_2 t, ?_⟩
  show i ∈ ((View.whole main_v51).slice (win1_2.rect t)).set
  rw [View.set_slice_whole, Rect.mem_set_unit]
  intro d
  match d with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- After the launch the output array is the plain product of the two arrays as the launch finds them. -/
theorem array_eq (c : Dev nD) :
    (dat1 V c).arrAt 2 cfg1.N = product 50000 128 128 (V c main_v50) (V c main_arg4) :=
  (dat1 V c).arrAt_eq_of_cover 2 _ (fun t _ => written_eq V c t) covered

end Cert.KernelIdeal.Tiles1

end
-- ==== Proof.KernelValue.lean ====
/-
  The idealized kernel's result as the network function of its arguments.

  The contents of the buffers at the twelve segment boundaries are walked from the launch to the return:
  the first stretch of host operations turns the edge list into the source ids, the target ids and the
  coefficient column and writes no argument; the first launch leaves the plain product of the features and
  the first weights in its output array and every other buffer as it was; the second stretch leaves the first
  layer of that product; the second launch leaves the plain product of that layer and the second weights;
  the third stretch leaves the mean of the rows of the second layer of that product. Composed, the result
  buffer holds `network` of the six argument arrays.
-/
import proofs.«116063_j71648644432367_1_alg».proof.Proof.Gen.KernelIdeal.Frame
import proofs.«116063_j71648644432367_1_alg».proof.Proof.Stretches
import proofs.«116063_j71648644432367_1_alg».proof.Proof.Tiles0
import proofs.«116063_j71648644432367_1_alg».proof.Proof.Tiles1

set_option maxRecDepth 16384

noncomputable section

namespace Cert.KernelIdeal.Walk

open Cert.KernelIdeal Cert.KernelIdeal.Gen Cert.KernelIdeal.Graph
open Idealize.ShloMosaic Idealize.ShloMosaic.TcCoe Idealize.SL.Sem

variable (m : (ℓ : Loc nD τ sig) → Buf (Elt Idealize.ShloMosaic.Ideal) ℓ) (ρ : Dev nD → PrngReg)

/-- At the last boundary the result buffer holds the network function of the launch contents of the arguments. -/
theorem result_eq (c : Dev nD) :
    W12 m ρ c (Proc.devRef .tc main_v71)
      = network (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  -- the first stretch, from the launch contents
  have a5 : W5 m ρ c (Proc.devRef .tc main_v5) = sources (m ((c : Thread nD τ).loc main_arg1)) := Stretches.first_sources (W0 m ρ c)
  have a6 : W5 m ρ c (Proc.devRef .tc main_v6) = targets (m ((c : Thread nD τ).loc main_arg1)) := Stretches.first_targets (W0 m ρ c)
  have a33 : W5 m ρ c (Proc.devRef .tc main_v33) = coefficients (sources (m ((c : Thread nD τ).loc main_arg1))) (targets (m ((c : Thread nD τ).loc main_arg1))) :=
    Stretches.first_coefficients (W0 m ρ c)
  have k0 : W5 m ρ c (Proc.devRef .tc main_arg0) = m ((c : Thread nD τ).loc main_arg0) := Stretches.first_keeps_arg0 (W0 m ρ c)
  have k2 : W5 m ρ c (Proc.devRef .tc main_arg2) = m ((c : Thread nD τ).loc main_arg2) := Stretches.first_keeps_arg2 (W0 m ρ c)
  have k3 : W5 m ρ c (Proc.devRef .tc main_arg3) = m ((c : Thread nD τ).loc main_arg3) := Stretches.first_keeps_arg3 (W0 m ρ c)
  have k4 : W5 m ρ c (Proc.devRef .tc main_arg4) = m ((c : Thread nD τ).loc main_arg4) := Stretches.first_keeps_arg4 (W0 m ρ c)
  have k5 : W5 m ρ c (Proc.devRef .tc main_arg5) = m ((c : Thread nD τ).loc main_arg5) := Stretches.first_keeps_arg5 (W0 m ρ c)
  -- the first launch: its output array is the plain product, every other buffer is kept
  have b34 : W6 m ρ c (Proc.devRef .tc main_v34) = product 50000 768 128 (W5 m ρ c (Proc.devRef .tc main_arg0)) (W5 m ρ c (Proc.devRef .tc main_arg2)) :=
    (W6_arr m ρ c 2).trans (Tiles0.array_eq (V5 m ρ) c)
  have b5 : W6 m ρ c (Proc.devRef .tc main_v5) = W5 m ρ c (Proc.devRef .tc main_v5) := W6_of_ne m ρ c main_v5 (by decide)
  have b6 : W6 m ρ c (Proc.devRef .tc main_v6) = W5 m ρ c (Proc.devRef .tc main_v6) := W6_of_ne m ρ c main_v6 (by decide)
  have b33 : W6 m ρ c (Proc.devRef .tc main_v33) = W5 m ρ c (Proc.devRef .tc main_v33) := W6_of_ne m ρ c main_v33 (by decide)
  have bA3 : W6 m ρ c (Proc.devRef .tc main_arg3) = W5 m ρ c (Proc.devRef .tc main_arg3) := W6_of_ne m ρ c main_arg3 (by decide)
  have bA4 : W6 m ρ c (Proc.devRef .tc main_arg4) = W5 m ρ c (Proc.devRef .tc main_arg4) := W6_of_ne m ρ c main_arg4 (by decide)
  have bA5 : W6 m ρ c (Proc.devRef .tc main_arg5) = W5 m ρ c (Proc.devRef .tc main_arg5) := W6_of_ne m ρ c main_arg5 (by decide)
  -- the second stretch
  have c50 : W8 m ρ c (Proc.devRef .tc main_v50) = layer (W6 m ρ c (Proc.devRef .tc main_v34)) (W6 m ρ c (Proc.devRef .tc main_v5)) (W6 m ρ c (Proc.devRef .tc main_v6))
      (W6 m ρ c (Proc.devRef .tc main_v33)) (W6 m ρ c (Proc.devRef .tc main_arg3)) := Stretches.second_layer (W6 m ρ c)
  have c5 : W8 m ρ c (Proc.devRef .tc main_v5) = W6 m ρ c (Proc.devRef .tc main_v5) := Stretches.second_keeps_v5 (W6 m ρ c)
  have c6 : W8 m ρ c (Proc.devRef .tc main_v6) = W6 m ρ c (Proc.devRef .tc main_v6) := Stretches.second_keeps_v6 (W6 m ρ c)
  have c33 : W8 m ρ c (Proc.devRef .tc main_v33) = W6 m ρ c (Proc.devRef .tc main_v33) := Stretches.second_keeps_v33 (W6 m ρ c)
  have cA4 : W8 m ρ c (Proc.devRef .tc main_arg4) = W6 m ρ c (Proc.devRef .tc main_arg4) := Stretches.second_keeps_arg4 (W6 m ρ c)
  have cA5 : W8 m ρ c (Proc.devRef .tc main_arg5) = W6 m ρ c (Proc.devRef .tc main_arg5) := Stretches.second_keeps_arg5 (W6 m ρ c)
  -- the second launch
  have d51 : W9 m ρ c (Proc.devRef .tc main_v51) = product 50000 128 128 (W8 m ρ c (Proc.devRef .tc main_v50)) (W8 m ρ c (Proc.devRef .tc main_arg4)) :=
    (W9_arr m ρ c 2).trans (Tiles1.array_eq (V8 m ρ) c)
  have d5 : W9 m ρ c (Proc.devRef .tc main_v5) = W8 m ρ c (Proc.devRef .tc main_v5) := W9_of_ne m ρ c main_v5 (by decide)
  have d6 : W9 m ρ c (Proc.devRef .tc main_v6) = W8 m ρ c (Proc.devRef .tc main_v6) := W9_of_ne m ρ c main_v6 (by decide)
  have d33 : W9 m ρ c (Proc.devRef .tc main_v33) = W8 m ρ c (Proc.devRef .tc main_v33) := W9_of_ne m ρ c main_v33 (by decide)
  have dA5 : W9 m ρ c (Proc.devRef .tc main_arg5) = W8 m ρ c (Proc.devRef .tc main_arg5) := W9_of_ne m ρ c main_arg5 (by decide)
  -- the third stretch, and the composition
  refine (Stretches.third_result (W9 m ρ c)).trans ?_
  rw [d51, d5, d6, d33, dA5, c50, c5, c6, c33, cA4, cA5, b34, b5, b6, b33, bA3, bA4, bA5, a5, a6, a33, k0, k2, k3, k4, k5]
  rfl

end Cert.KernelIdeal.Walk

end
-- ==== Proof.RefRun.lean ====
/-
  The run of the idealized reference program's @main, read back as a straight line of operations.

  @main is printed in three consecutive windows; six of its statements are calls of module-local
  functions (a select against a broadcast scalar, four times; a leaky rectifier, twice, which itself
  calls a three-operand select). A call executes the callee's body on the operands, each value of the
  body in a buffer of that call's own, so the program is the single list of operations obtained by
  writing, in place of each call, the callee's operations over the call's operand buffers and the
  call's record of buffers (the nested call likewise, over the nested record). For that list `ops`:

  * each window equals `seq` of its part of the list, and @main equals `seq ops`;
  * every operation touches TensorCore references only, and the signature scopes nothing, so
    from any memory with zero counters every weakly fair execution of @main terminates with
    every buffer `b` of each device at `after ops` of the launch contents (`run`);
  * no operation writes an argument buffer, so `after ops V` agrees with `V` at each of the six
    arguments.
-/
import proofs.«116063_j71648644432367_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The 64 operations of @main's statements 1 … 60 (window `main_part0`), in order, each call replaced by
    the callee's operations over that call's buffers. -/
abbrev ops_part0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg2 main_v4 ((fun l r => Host.dotGeneral dot_S50000x768_S768x128_S50000x128_1_0_0_1_n_n none l r) : (⟨S50000x768, .f32⟩ : BufTy).Contents (Elt F) → (⟨S768x128, .f32⟩ : BufTy).Contents (Elt F) → (⟨S50000x128, .f32⟩ : BufTy).Contents (Elt F)),
    StableHlo.nullary main_v5 (iotaInDim S50000 32 0),
    StableHlo.binary main_v1 main_v5 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v5 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v8 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v9 (broadcastInDim S50000 ![] bcast_S_S50000 : (⟨S_, .f32⟩ : BufTy).Contents (Elt F) → (⟨S50000, .f32⟩ : BufTy).Contents (Elt F)),
    StableHlo.unary main_v7 main_v10 (broadcastInDim S850000x1 ![0] bcast_S850000_S850000x1_0 : (⟨S850000, .i32⟩ : BufTy).Contents (Elt F) → (⟨S850000x1, .i32⟩ : BufTy).Contents (Elt F)),
    StableHlo.ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v12 (broadcastInDim S50000 ![] bcast_S_S50000 : (⟨S_, .f32⟩ : BufTy).Contents (Elt F) → (⟨S50000, .f32⟩ : BufTy).Contents (Elt F)),
    StableHlo.binary main_v11 main_v12 main_v13 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v13 : StableHlo.TRef sig ⟨S50000, .i1⟩) (.of main_v11 : StableHlo.TRef sig ⟨S50000, .f32⟩) (.of main_call0_v1 : StableHlo.TRef sig ⟨S50000, .f32⟩) (.of main_v14 : StableHlo.TRef sig ⟨S50000, .f32⟩) select,
    StableHlo.nullary main_cst_3 (constant S_ .f32 0x00000000#32),
    StableHlo.unary main_cst_3 main_v15 (broadcastInDim S50000 ![] bcast_S_S50000 : (⟨S_, .f32⟩ : BufTy).Contents (Elt F) → (⟨S50000, .f32⟩ : BufTy).Contents (Elt F)),
    StableHlo.binary main_v11 main_v15 main_v16 (cmpf .ogt : (⟨S50000, .f32⟩ : BufTy).Contents (Elt F) → (⟨S50000, .f32⟩ : BufTy).Contents (Elt F) → (⟨S50000, .i1⟩ : BufTy).Contents (Elt F)),
    StableHlo.unary main_v14 main_v17 (Host.rsqrt : (⟨S50000, .f32⟩ : BufTy).Contents (Elt F) → (⟨S50000, .f32⟩ : BufTy).Contents (Elt F)),
    StableHlo.nullary main_cst_4 (constant S_ .f32 0x00000000#32),
    StableHlo.TRef.unary (.of main_cst_4 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S50000, .f32⟩) (broadcastInDim S50000 ![] bcast_S_S50000),
    StableHlo.TRef.ternary (.of main_v16 : StableHlo.TRef sig ⟨S50000, .i1⟩) (.of main_v17 : StableHlo.TRef sig ⟨S50000, .f32⟩) (.of main_call1_v1 : StableHlo.TRef sig ⟨S50000, .f32⟩) (.of main_v18 : StableHlo.TRef sig ⟨S50000, .f32⟩) select,
    StableHlo.nullary main_c (constantI S_ 32 0#32),
    StableHlo.unary main_c main_v19 (broadcastInDim S850000 ![] bcast_S_S850000 : (⟨S_, .i32⟩ : BufTy).Contents (Elt F) → (⟨S850000, .i32⟩ : BufTy).Contents (Elt F)),
    StableHlo.binary main_v6 main_v19 main_v20 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v21 (broadcastInDim S850000 ![] bcast_S_S850000 : (⟨S_, .i32⟩ : BufTy).Contents (Elt F) → (⟨S850000, .i32⟩ : BufTy).Contents (Elt F)),
    StableHlo.binary main_v6 main_v21 main_v22 (addi : (⟨S850000, .i32⟩ : BufTy).Contents (Elt F) → (⟨S850000, .i32⟩ : BufTy).Contents (Elt F) → (⟨S850000, .i32⟩ : BufTy).Contents (Elt F)),
    StableHlo.ternary main_v20 main_v22 main_v6 main_v23 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v23 main_v24 (broadcastInDim S850000x1 ![0] bcast_S850000_S850000x1_0 : (⟨S850000, .i32⟩ : BufTy).Contents (Elt F) → (⟨S850000x1, .i32⟩ : BufTy).Contents (Elt F)),
    StableHlo.binary main_v18 main_v24 main_v25 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_6 (constantI S_ 32 0#32),
    StableHlo.unary main_c_6 main_v26 (broadcastInDim S850000 ![] bcast_S_S850000 : (⟨S_, .i32⟩ : BufTy).Contents (Elt F) → (⟨S850000, .i32⟩ : BufTy).Contents (Elt F)),
    StableHlo.binary main_v7 main_v26 main_v27 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v28 (broadcastInDim S850000 ![] bcast_S_S850000 : (⟨S_, .i32⟩ : BufTy).Contents (Elt F) → (⟨S850000, .i32⟩ : BufTy).Contents (Elt F)),
    StableHlo.binary main_v7 main_v28 main_v29 (addi : (⟨S850000, .i32⟩ : BufTy).Contents (Elt F) → (⟨S850000, .i32⟩ : BufTy).Contents (Elt F) → (⟨S850000, .i32⟩ : BufTy).Contents (Elt F)),
    StableHlo.ternary main_v27 main_v29 main_v7 main_v30 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v30 main_v31 (broadcastInDim S850000x1 ![0] bcast_S850000_S850000x1_0 : (⟨S850000, .i32⟩ : BufTy).Contents (Elt F) → (⟨S850000x1, .i32⟩ : BufTy).Contents (Elt F)),
    StableHlo.binary main_v18 main_v31 main_v32 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v25 main_v32 main_v33 (mulf : (⟨S850000, .f32⟩ : BufTy).Contents (Elt F) → (⟨S850000, .f32⟩ : BufTy).Contents (Elt F) → (⟨S850000, .f32⟩ : BufTy).Contents (Elt F)),
    StableHlo.nullary main_c_8 (constantI S_ 32 0#32),
    StableHlo.unary main_c_8 main_v34 (broadcastInDim S850000 ![] bcast_S_S850000 : (⟨S_, .i32⟩ : BufTy).Contents (Elt F) → (⟨S850000, .i32⟩ : BufTy).Contents (Elt F)),
    StableHlo.binary main_v6 main_v34 main_v35 (cmpi .slt : (⟨S850000, .i32⟩ : BufTy).Contents (Elt F) → (⟨S850000, .i32⟩ : BufTy).Contents (Elt F) → (⟨S850000, .i1⟩ : BufTy).Contents (Elt F)),
    StableHlo.nullary main_c_9 (constantI S_ 32 50000#32),
    StableHlo.unary main_c_9 main_v36 (broadcastInDim S850000 ![] bcast_S_S850000 : (⟨S_, .i32⟩ : BufTy).Contents (Elt F) → (⟨S850000, .i32⟩ : BufTy).Contents (Elt F)),
    StableHlo.binary main_v6 main_v36 main_v37 (addi : (⟨S850000, .i32⟩ : BufTy).Contents (Elt F) → (⟨S850000, .i32⟩ : BufTy).Contents (Elt F) → (⟨S850000, .i32⟩ : BufTy).Contents (Elt F)),
    StableHlo.ternary main_v35 main_v37 main_v6 main_v38 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v38 main_v39 (broadcastInDim S850000x1 ![0] bcast_S850000_S850000x1_0 : (⟨S850000, .i32⟩ : BufTy).Contents (Elt F) → (⟨S850000x1, .i32⟩ : BufTy).Contents (Elt F)),
    StableHlo.binary main_v4 main_v39 main_v40 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v33 main_v41 (broadcastInDim S850000x1 ![0] bcast_S850000_S850000x1_0 : (⟨S850000, .f32⟩ : BufTy).Contents (Elt F) → (⟨S850000x1, .f32⟩ : BufTy).Contents (Elt F)),
    StableHlo.unary main_v41 main_v42 (broadcastInDim S850000x128 ![0, 1] bcast_S850000x1_S850000x128_0_1 : (⟨S850000x1, .f32⟩ : BufTy).Contents (Elt F) → (⟨S850000x128, .f32⟩ : BufTy).Contents (Elt F)),
    StableHlo.binary main_v40 main_v42 main_v43 (mulf : (⟨S850000x128, .f32⟩ : BufTy).Contents (Elt F) → (⟨S850000x128, .f32⟩ : BufTy).Contents (Elt F) → (⟨S850000x128, .f32⟩ : BufTy).Contents (Elt F)),
    StableHlo.nullary main_cst_10 (constant S_ .f32 0x00000000#32),
    StableHlo.unary main_cst_10 main_v44 (broadcastInDim S50000x128 ![] bcast_S_S50000x128 : (⟨S_, .f32⟩ : BufTy).Contents (Elt F) → (⟨S50000x128, .f32⟩ : BufTy).Contents (Elt F)),
    StableHlo.unary main_v7 main_v45 (broadcastInDim S850000x1 ![0] bcast_S850000_S850000x1_0 : (⟨S850000, .i32⟩ : BufTy).Contents (Elt F) → (⟨S850000x1, .i32⟩ : BufTy).Contents (Elt F)),
    StableHlo.ternary main_v44 main_v45 main_v43 main_v46 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- The 70 operations of @main's statements 61 … 120 (window `main_part1`), in order, each call replaced by
    the callee's operations over that call's buffers. -/
abbrev ops_part1 : List (HloOp τ sig (Elt F)) :=
  [ StableHlo.unary main_arg3 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v46 main_v48 main_v49 (addf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3C23D70A#32),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x128, .f32⟩) (broadcastInDim S50000x128 ![] bcast_S_S50000x128),
    StableHlo.TRef.binary (.of main_v49 : StableHlo.TRef sig ⟨S50000x128, .f32⟩) (.of main_call2_v0 : StableHlo.TRef sig ⟨S50000x128, .f32⟩) (.of main_call2_v1 : StableHlo.TRef sig ⟨S50000x128, .i1⟩) (cmpf .oge),
    StableHlo.TRef.unary (.of main_cst_11 : StableHlo.TRef sig ⟨S_, .f32⟩) (.of main_call2_v2 : StableHlo.TRef sig ⟨S_, .f32⟩) id,
    StableHlo.TRef.unary (.of main_call2_v2 : StableHlo.TRef sig ⟨S_, .f32⟩) (.of main_call2_v3 : StableHlo.TRef sig ⟨S50000x128, .f32⟩) (broadcastInDim S50000x128 ![] bcast_S_S50000x128),
    StableHlo.TRef.binary (.of main_call2_v3 : StableHlo.TRef sig ⟨S50000x128, .f32⟩) (.of main_v49 : StableHlo.TRef sig ⟨S50000x128, .f32⟩) (.of main_call2_v4 : StableHlo.TRef sig ⟨S50000x128, .f32⟩) mulf,
    StableHlo.TRef.ternary (.of main_call2_v1 : StableHlo.TRef sig ⟨S50000x128, .i1⟩) (.of main_v49 : StableHlo.TRef sig ⟨S50000x128, .f32⟩) (.of main_call2_v4 : StableHlo.TRef sig ⟨S50000x128, .f32⟩) (.of main_v50 : StableHlo.TRef sig ⟨S50000x128, .f32⟩) select,
    StableHlo.binary main_v50 main_arg4 main_v51 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_v52 (iotaInDim S50000 32 0),
    StableHlo.binary main_v1 main_v52 main_v53 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v52 main_v54 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_12 (constant S_ .f32 0x3F800000#32),
    StableHlo.unary main_cst_12 main_v55 (broadcastInDim S850000 ![] bcast_S_S850000 : (⟨S_, .f32⟩ : BufTy).Contents (Elt F) → (⟨S850000, .f32⟩ : BufTy).Contents (Elt F)),
    StableHlo.nullary main_cst_13 (constant S_ .f32 0x00000000#32),
    StableHlo.unary main_cst_13 main_v56 (broadcastInDim S50000 ![] bcast_S_S50000 : (⟨S_, .f32⟩ : BufTy).Contents (Elt F) → (⟨S50000, .f32⟩ : BufTy).Contents (Elt F)),
    StableHlo.unary main_v54 main_v57 (broadcastInDim S850000x1 ![0] bcast_S850000_S850000x1_0 : (⟨S850000, .i32⟩ : BufTy).Contents (Elt F) → (⟨S850000x1, .i32⟩ : BufTy).Contents (Elt F)),
    StableHlo.ternary main_v56 main_v57 main_v55 main_v58 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_14 (constant S_ .f32 0x00000000#32),
    StableHlo.unary main_cst_14 main_v59 (broadcastInDim S50000 ![] bcast_S_S50000 : (⟨S_, .f32⟩ : BufTy).Contents (Elt F) → (⟨S50000, .f32⟩ : BufTy).Contents (Elt F)),
    StableHlo.binary main_v58 main_v59 main_v60 (cmpf .ogt : (⟨S50000, .f32⟩ : BufTy).Contents (Elt F) → (⟨S50000, .f32⟩ : BufTy).Contents (Elt F) → (⟨S50000, .i1⟩ : BufTy).Contents (Elt F)),
    StableHlo.nullary main_cst_15 (constant S_ .f32 0x3F800000#32),
    StableHlo.TRef.unary (.of main_cst_15 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S50000, .f32⟩) (broadcastInDim S50000 ![] bcast_S_S50000),
    StableHlo.TRef.ternary (.of main_v60 : StableHlo.TRef sig ⟨S50000, .i1⟩) (.of main_v58 : StableHlo.TRef sig ⟨S50000, .f32⟩) (.of main_call3_v1 : StableHlo.TRef sig ⟨S50000, .f32⟩) (.of main_v61 : StableHlo.TRef sig ⟨S50000, .f32⟩) select,
    StableHlo.nullary main_cst_16 (constant S_ .f32 0x00000000#32),
    StableHlo.unary main_cst_16 main_v62 (broadcastInDim S50000 ![] bcast_S_S50000 : (⟨S_, .f32⟩ : BufTy).Contents (Elt F) → (⟨S50000, .f32⟩ : BufTy).Contents (Elt F)),
    StableHlo.binary main_v58 main_v62 main_v63 (cmpf .ogt : (⟨S50000, .f32⟩ : BufTy).Contents (Elt F) → (⟨S50000, .f32⟩ : BufTy).Contents (Elt F) → (⟨S50000, .i1⟩ : BufTy).Contents (Elt F)),
    StableHlo.unary main_v61 main_v64 (Host.rsqrt : (⟨S50000, .f32⟩ : BufTy).Contents (Elt F) → (⟨S50000, .f32⟩ : BufTy).Contents (Elt F)),
    StableHlo.nullary main_cst_17 (constant S_ .f32 0x00000000#32),
    StableHlo.TRef.unary (.of main_cst_17 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S50000, .f32⟩) (broadcastInDim S50000 ![] bcast_S_S50000),
    StableHlo.TRef.ternary (.of main_v63 : StableHlo.TRef sig ⟨S50000, .i1⟩) (.of main_v64 : StableHlo.TRef sig ⟨S50000, .f32⟩) (.of main_call4_v1 : StableHlo.TRef sig ⟨S50000, .f32⟩) (.of main_v65 : StableHlo.TRef sig ⟨S50000, .f32⟩) select,
    StableHlo.nullary main_c_18 (constantI S_ 32 0#32),
    StableHlo.unary main_c_18 main_v66 (broadcastInDim S850000 ![] bcast_S_S850000 : (⟨S_, .i32⟩ : BufTy).Contents (Elt F) → (⟨S850000, .i32⟩ : BufTy).Contents (Elt F)),
    StableHlo.binary main_v53 main_v66 main_v67 (cmpi .slt : (⟨S850000, .i32⟩ : BufTy).Contents (Elt F) → (⟨S850000, .i32⟩ : BufTy).Contents (Elt F) → (⟨S850000, .i1⟩ : BufTy).Contents (Elt F)),
    StableHlo.nullary main_c_19 (constantI S_ 32 50000#32),
    StableHlo.unary main_c_19 main_v68 (broadcastInDim S850000 ![] bcast_S_S850000 : (⟨S_, .i32⟩ : BufTy).Contents (Elt F) → (⟨S850000, .i32⟩ : BufTy).Contents (Elt F)),
    StableHlo.binary main_v53 main_v68 main_v69 (addi : (⟨S850000, .i32⟩ : BufTy).Contents (Elt F) → (⟨S850000, .i32⟩ : BufTy).Contents (Elt F) → (⟨S850000, .i32⟩ : BufTy).Contents (Elt F)),
    StableHlo.ternary main_v67 main_v69 main_v53 main_v70 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v70 main_v71 (broadcastInDim S850000x1 ![0] bcast_S850000_S850000x1_0 : (⟨S850000, .i32⟩ : BufTy).Contents (Elt F) → (⟨S850000x1, .i32⟩ : BufTy).Contents (Elt F)),
    StableHlo.binary main_v65 main_v71 main_v72 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_20 (constantI S_ 32 0#32),
    StableHlo.unary main_c_20 main_v73 (broadcastInDim S850000 ![] bcast_S_S850000 : (⟨S_, .i32⟩ : BufTy).Contents (Elt F) → (⟨S850000, .i32⟩ : BufTy).Contents (Elt F)),
    StableHlo.binary main_v54 main_v73 main_v74 (cmpi .slt : (⟨S850000, .i32⟩ : BufTy).Contents (Elt F) → (⟨S850000, .i32⟩ : BufTy).Contents (Elt F) → (⟨S850000, .i1⟩ : BufTy).Contents (Elt F)),
    StableHlo.nullary main_c_21 (constantI S_ 32 50000#32),
    StableHlo.unary main_c_21 main_v75 (broadcastInDim S850000 ![] bcast_S_S850000 : (⟨S_, .i32⟩ : BufTy).Contents (Elt F) → (⟨S850000, .i32⟩ : BufTy).Contents (Elt F)),
    StableHlo.binary main_v54 main_v75 main_v76 (addi : (⟨S850000, .i32⟩ : BufTy).Contents (Elt F) → (⟨S850000, .i32⟩ : BufTy).Contents (Elt F) → (⟨S850000, .i32⟩ : BufTy).Contents (Elt F)),
    StableHlo.ternary main_v74 main_v76 main_v54 main_v77 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v77 main_v78 (broadcastInDim S850000x1 ![0] bcast_S850000_S850000x1_0 : (⟨S850000, .i32⟩ : BufTy).Contents (Elt F) → (⟨S850000x1, .i32⟩ : BufTy).Contents (Elt F)),
    StableHlo.binary main_v65 main_v78 main_v79 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v72 main_v79 main_v80 (mulf : (⟨S850000, .f32⟩ : BufTy).Contents (Elt F) → (⟨S850000, .f32⟩ : BufTy).Contents (Elt F) → (⟨S850000, .f32⟩ : BufTy).Contents (Elt F)),
    StableHlo.nullary main_c_22 (constantI S_ 32 0#32),
    StableHlo.unary main_c_22 main_v81 (broadcastInDim S850000 ![] bcast_S_S850000 : (⟨S_, .i32⟩ : BufTy).Contents (Elt F) → (⟨S850000, .i32⟩ : BufTy).Contents (Elt F)),
    StableHlo.binary main_v53 main_v81 main_v82 (cmpi .slt : (⟨S850000, .i32⟩ : BufTy).Contents (Elt F) → (⟨S850000, .i32⟩ : BufTy).Contents (Elt F) → (⟨S850000, .i1⟩ : BufTy).Contents (Elt F)),
    StableHlo.nullary main_c_23 (constantI S_ 32 50000#32),
    StableHlo.unary main_c_23 main_v83 (broadcastInDim S850000 ![] bcast_S_S850000 : (⟨S_, .i32⟩ : BufTy).Contents (Elt F) → (⟨S850000, .i32⟩ : BufTy).Contents (Elt F)),
    StableHlo.binary main_v53 main_v83 main_v84 (addi : (⟨S850000, .i32⟩ : BufTy).Contents (Elt F) → (⟨S850000, .i32⟩ : BufTy).Contents (Elt F) → (⟨S850000, .i32⟩ : BufTy).Contents (Elt F)),
    StableHlo.ternary main_v82 main_v84 main_v53 main_v85 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v85 main_v86 (broadcastInDim S850000x1 ![0] bcast_S850000_S850000x1_0 : (⟨S850000, .i32⟩ : BufTy).Contents (Elt F) → (⟨S850000x1, .i32⟩ : BufTy).Contents (Elt F)),
    StableHlo.binary main_v51 main_v86 main_v87 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v80 main_v88 (broadcastInDim S850000x1 ![0] bcast_S850000_S850000x1_0 : (⟨S850000, .f32⟩ : BufTy).Contents (Elt F) → (⟨S850000x1, .f32⟩ : BufTy).Contents (Elt F)),
    StableHlo.unary main_v88 main_v89 (broadcastInDim S850000x128 ![0, 1] bcast_S850000x1_S850000x128_0_1 : (⟨S850000x1, .f32⟩ : BufTy).Contents (Elt F) → (⟨S850000x128, .f32⟩ : BufTy).Contents (Elt F)),
    StableHlo.binary main_v87 main_v89 main_v90 (mulf : (⟨S850000x128, .f32⟩ : BufTy).Contents (Elt F) → (⟨S850000x128, .f32⟩ : BufTy).Contents (Elt F) → (⟨S850000x128, .f32⟩ : BufTy).Contents (Elt F)),
    StableHlo.nullary main_cst_24 (constant S_ .f32 0x00000000#32),
    StableHlo.unary main_cst_24 main_v91 (broadcastInDim S50000x128 ![] bcast_S_S50000x128 : (⟨S_, .f32⟩ : BufTy).Contents (Elt F) → (⟨S50000x128, .f32⟩ : BufTy).Contents (Elt F)),
    StableHlo.unary main_v54 main_v92 (broadcastInDim S850000x1 ![0] bcast_S850000_S850000x1_0 : (⟨S850000, .i32⟩ : BufTy).Contents (Elt F) → (⟨S850000x1, .i32⟩ : BufTy).Contents (Elt F)) ]

/-- The 18 operations of @main's statements 121 … 133 (window `main_part2`), in order, each call replaced by
    the callee's operations over that call's buffers. -/
abbrev ops_part2 : List (HloOp τ sig (Elt F)) :=
  [ StableHlo.ternary main_v91 main_v92 main_v90 main_v93 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg5 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S50000x128 ![0, 1] bcast_S1x128_S50000x128_0_1 : (⟨S1x128, .f32⟩ : BufTy).Contents (Elt F) → (⟨S50000x128, .f32⟩ : BufTy).Contents (Elt F)),
    StableHlo.binary main_v93 main_v95 main_v96 (addf : (⟨S50000x128, .f32⟩ : BufTy).Contents (Elt F) → (⟨S50000x128, .f32⟩ : BufTy).Contents (Elt F) → (⟨S50000x128, .f32⟩ : BufTy).Contents (Elt F)),
    StableHlo.nullary main_cst_25 (constant S_ .f32 0x3C23D70A#32),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S50000x128, .f32⟩) (broadcastInDim S50000x128 ![] bcast_S_S50000x128),
    StableHlo.TRef.binary (.of main_v96 : StableHlo.TRef sig ⟨S50000x128, .f32⟩) (.of main_call5_v0 : StableHlo.TRef sig ⟨S50000x128, .f32⟩) (.of main_call5_v1 : StableHlo.TRef sig ⟨S50000x128, .i1⟩) (cmpf .oge),
    StableHlo.TRef.unary (.of main_cst_25 : StableHlo.TRef sig ⟨S_, .f32⟩) (.of main_call5_v2 : StableHlo.TRef sig ⟨S_, .f32⟩) id,
    StableHlo.TRef.unary (.of main_call5_v2 : StableHlo.TRef sig ⟨S_, .f32⟩) (.of main_call5_v3 : StableHlo.TRef sig ⟨S50000x128, .f32⟩) (broadcastInDim S50000x128 ![] bcast_S_S50000x128),
    StableHlo.TRef.binary (.of main_call5_v3 : StableHlo.TRef sig ⟨S50000x128, .f32⟩) (.of main_v96 : StableHlo.TRef sig ⟨S50000x128, .f32⟩) (.of main_call5_v4 : StableHlo.TRef sig ⟨S50000x128, .f32⟩) mulf,
    StableHlo.TRef.ternary (.of main_call5_v1 : StableHlo.TRef sig ⟨S50000x128, .i1⟩) (.of main_v96 : StableHlo.TRef sig ⟨S50000x128, .f32⟩) (.of main_call5_v4 : StableHlo.TRef sig ⟨S50000x128, .f32⟩) (.of main_v97 : StableHlo.TRef sig ⟨S50000x128, .f32⟩) select,
    StableHlo.nullary main_cst_26 (constant S_ .f32 0x00000000#32),
    StableHlo.binary main_v97 main_cst_26 main_v98 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_27 (constant S_ .f32 0x47435000#32),
    StableHlo.unary main_cst_27 main_v99 (broadcastInDim S128 ![] bcast_S_S128 : (⟨S_, .f32⟩ : BufTy).Contents (Elt F) → (⟨S128, .f32⟩ : BufTy).Contents (Elt F)),
    StableHlo.binary main_v98 main_v99 main_v100 (Host.divf : (⟨S128, .f32⟩ : BufTy).Contents (Elt F) → (⟨S128, .f32⟩ : BufTy).Contents (Elt F) → (⟨S128, .f32⟩ : BufTy).Contents (Elt F)),
    StableHlo.unary main_v100 main_v101 (broadcastInDim S1x128 ![1] bcast_S128_S1x128_1 : (⟨S128, .f32⟩ : BufTy).Contents (Elt F) → (⟨S1x128, .f32⟩ : BufTy).Contents (Elt F)) ]

/-- @main's 152 operations, in order. -/
abbrev ops : List (HloOp τ sig (Elt F)) :=
  ops_part0 ++ (ops_part1 ++ ops_part2)

/-! ## @main is that line

Sequencing in the free monad grafts the continuation onto every leaf, structurally; a call is its
body, which is a sequence ending in the return. Both sides of each equation below are therefore the
same chain of operation steps once the binds are computed, and the equation holds by computation.
A window whose last statement is an operation (no closing return) is the same chain too: binding
the return onto an operation step's leaf is the step. -/

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_part0_sub : (ops_part0 : List (HloOp τ sig (Elt F))).Forall fun op => op.bufs ⊆ tcRefs τ sig :=
  ⟨unary_bufs_sub .., reshape_bufs_sub .., unary_bufs_sub .., reshape_bufs_sub .., binary_bufs_sub .., nullary_bufs_sub ..,
    binary_bufs_sub .., binary_bufs_sub .., nullary_bufs_sub .., unary_bufs_sub .., nullary_bufs_sub .., unary_bufs_sub ..,
    unary_bufs_sub .., ternary_bufs_sub .., nullary_bufs_sub .., unary_bufs_sub .., binary_bufs_sub .., nullary_bufs_sub ..,
    unary_bufs_sub .., unary_bufs_sub .., ternary_bufs_sub .., nullary_bufs_sub .., unary_bufs_sub .., binary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub ..⟩
set_option maxRecDepth 8192 in
theorem ops_part1_sub : (ops_part1 : List (HloOp τ sig (Elt F))).Forall fun op => op.bufs ⊆ tcRefs τ sig :=
  ⟨unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., binary_bufs_sub ..,
    nullary_bufs_sub .., binary_bufs_sub .., binary_bufs_sub .., nullary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., unary_bufs_sub .., ternary_bufs_sub .., nullary_bufs_sub .., unary_bufs_sub ..,
    binary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub ..⟩
set_option maxRecDepth 8192 in
theorem ops_part2_sub : (ops_part2 : List (HloOp τ sig (Elt F))).Forall fun op => op.bufs ⊆ tcRefs τ sig :=
  ⟨ternary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    nullary_bufs_sub .., binary_bufs_sub .., nullary_bufs_sub .., unary_bufs_sub .., binary_bufs_sub .., unary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops_part0_sub op h, List.forall_iff_forall_mem.mp ops_part1_sub op h,
      List.forall_iff_forall_mem.mp ops_part2_sub op h]

/-! ## The run -/

/-- At the compiled mesh, for any float values, from any memory with zero counters: every weakly fair execution
    of @main on the TensorCores terminates, and every final state has each TensorCore buffer at the operations'
    fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-! ## The arguments are left as they were

The fold over two lines in a row is the fold over the second from the fold over the first. At an
argument's buffer every operation of the line leaves what was there: each writes one buffer, its
result's, and no result buffer is an argument's. -/

theorem after_two (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

set_option maxRecDepth 8192 in
theorem after_main_arg0 (V : Valuation τ sig (Elt F)) :
    after ops V (Proc.devRef .tc main_arg0) = V (Proc.devRef .tc main_arg0) := by
  simp only [ops, after_two]
  after_results_simp
set_option maxRecDepth 8192 in
theorem after_main_arg1 (V : Valuation τ sig (Elt F)) :
    after ops V (Proc.devRef .tc main_arg1) = V (Proc.devRef .tc main_arg1) := by
  simp only [ops, after_two]
  after_results_simp
set_option maxRecDepth 8192 in
theorem after_main_arg2 (V : Valuation τ sig (Elt F)) :
    after ops V (Proc.devRef .tc main_arg2) = V (Proc.devRef .tc main_arg2) := by
  simp only [ops, after_two]
  after_results_simp
set_option maxRecDepth 8192 in
theorem after_main_arg3 (V : Valuation τ sig (Elt F)) :
    after ops V (Proc.devRef .tc main_arg3) = V (Proc.devRef .tc main_arg3) := by
  simp only [ops, after_two]
  after_results_simp
set_option maxRecDepth 8192 in
theorem after_main_arg4 (V : Valuation τ sig (Elt F)) :
    after ops V (Proc.devRef .tc main_arg4) = V (Proc.devRef .tc main_arg4) := by
  simp only [ops, after_two]
  after_results_simp
set_option maxRecDepth 8192 in
theorem after_main_arg5 (V : Valuation τ sig (Elt F)) :
    after ops V (Proc.devRef .tc main_arg5) = V (Proc.devRef .tc main_arg5) := by
  simp only [ops, after_two]
  after_results_simp

end Cert.ReferenceIdeal.HandRun

end
-- ==== Proof.RefNetwork.lean ====
/-
  The reference's result as the network function of its arguments.

  The reference's operations, in order, fall into five consecutive segments: the first product with the ids and
  the edge coefficients; the first layer; the second product with the ids and coefficients computed again; the
  second layer; the mean of the rows. From ANY contents V of the buffers each segment leaves a stage function
  of what it reads and keeps what it does not write; composed over the launch contents, the result buffer holds
  `network` of the six arguments. The host's dot_general with these dimension numbers is the plain product.
-/
import proofs.«116063_j71648644432367_1_alg».proof.Proof.RefRun
import proofs.«116063_j71648644432367_1_alg».proof.Proof.Stages

set_option maxRecDepth 16384

noncomputable section

namespace Cert.ReferenceIdeal.HandValue

open Cert.ReferenceIdeal Cert.ReferenceIdeal.Gen Cert.ReferenceIdeal.HandRun
open Idealize.ShloMosaic Idealize.ShloMosaic.TcCoe Idealize.SL.Sem Idealize.ShloMosaic.StableHlo
open Cert.KernelIdeal (Graph.A Graph.sources Graph.targets Graph.coefficients Graph.layer Graph.meanRows Graph.product Graph.network)

variable {F : FTy → Type} [FloatOps F]

/-- The first product, the ids and the edge coefficients. -/
abbrev segA : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg2 main_v4 ((fun l r => Host.dotGeneral dot_S50000x768_S768x128_S50000x128_1_0_0_1_n_n none l r) : (⟨S50000x768, .f32⟩ : BufTy).Contents (Elt F) → (⟨S768x128, .f32⟩ : BufTy).Contents (Elt F) → (⟨S50000x128, .f32⟩ : BufTy).Contents (Elt F)),
    StableHlo.nullary main_v5 (iotaInDim S50000 32 0),
    StableHlo.binary main_v1 main_v5 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v5 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v8 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v9 (broadcastInDim S50000 ![] bcast_S_S50000 : (⟨S_, .f32⟩ : BufTy).Contents (Elt F) → (⟨S50000, .f32⟩ : BufTy).Contents (Elt F)),
    StableHlo.unary main_v7 main_v10 (broadcastInDim S850000x1 ![0] bcast_S850000_S850000x1_0 : (⟨S850000, .i32⟩ : BufTy).Contents (Elt F) → (⟨S850000x1, .i32⟩ : BufTy).Contents (Elt F)),
    StableHlo.ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v12 (broadcastInDim S50000 ![] bcast_S_S50000 : (⟨S_, .f32⟩ : BufTy).Contents (Elt F) → (⟨S50000, .f32⟩ : BufTy).Contents (Elt F)),
    StableHlo.binary main_v11 main_v12 main_v13 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v13 : StableHlo.TRef sig ⟨S50000, .i1⟩) (.of main_v11 : StableHlo.TRef sig ⟨S50000, .f32⟩) (.of main_call0_v1 : StableHlo.TRef sig ⟨S50000, .f32⟩) (.of main_v14 : StableHlo.TRef sig ⟨S50000, .f32⟩) select,
    StableHlo.nullary main_cst_3 (constant S_ .f32 0x00000000#32),
    StableHlo.unary main_cst_3 main_v15 (broadcastInDim S50000 ![] bcast_S_S50000 : (⟨S_, .f32⟩ : BufTy).Contents (Elt F) → (⟨S50000, .f32⟩ : BufTy).Contents (Elt F)),
    StableHlo.binary main_v11 main_v15 main_v16 (cmpf .ogt : (⟨S50000, .f32⟩ : BufTy).Contents (Elt F) → (⟨S50000, .f32⟩ : BufTy).Contents (Elt F) → (⟨S50000, .i1⟩ : BufTy).Contents (Elt F)),
    StableHlo.unary main_v14 main_v17 (Host.rsqrt : (⟨S50000, .f32⟩ : BufTy).Contents (Elt F) → (⟨S50000, .f32⟩ : BufTy).Contents (Elt F)),
    StableHlo.nullary main_cst_4 (constant S_ .f32 0x00000000#32),
    StableHlo.TRef.unary (.of main_cst_4 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S50000, .f32⟩) (broadcastInDim S50000 ![] bcast_S_S50000),
    StableHlo.TRef.ternary (.of main_v16 : StableHlo.TRef sig ⟨S50000, .i1⟩) (.of main_v17 : StableHlo.TRef sig ⟨S50000, .f32⟩) (.of main_call1_v1 : StableHlo.TRef sig ⟨S50000, .f32⟩) (.of main_v18 : StableHlo.TRef sig ⟨S50000, .f32⟩) select,
    StableHlo.nullary main_c (constantI S_ 32 0#32),
    StableHlo.unary main_c main_v19 (broadcastInDim S850000 ![] bcast_S_S850000 : (⟨S_, .i32⟩ : BufTy).Contents (Elt F) → (⟨S850000, .i32⟩ : BufTy).Contents (Elt F)),
    StableHlo.binary main_v6 main_v19 main_v20 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v21 (broadcastInDim S850000 ![] bcast_S_S850000 : (⟨S_, .i32⟩ : BufTy).Contents (Elt F) → (⟨S850000, .i32⟩ : BufTy).Contents (Elt F)),
    StableHlo.binary main_v6 main_v21 main_v22 (addi : (⟨S850000, .i32⟩ : BufTy).Contents (Elt F) → (⟨S850000, .i32⟩ : BufTy).Contents (Elt F) → (⟨S850000, .i32⟩ : BufTy).Contents (Elt F)),
    StableHlo.ternary main_v20 main_v22 main_v6 main_v23 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v23 main_v24 (broadcastInDim S850000x1 ![0] bcast_S850000_S850000x1_0 : (⟨S850000, .i32⟩ : BufTy).Contents (Elt F) → (⟨S850000x1, .i32⟩ : BufTy).Contents (Elt F)),
    StableHlo.binary main_v18 main_v24 main_v25 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_6 (constantI S_ 32 0#32),
    StableHlo.unary main_c_6 main_v26 (broadcastInDim S850000 ![] bcast_S_S850000 : (⟨S_, .i32⟩ : BufTy).Contents (Elt F) → (⟨S850000, .i32⟩ : BufTy).Contents (Elt F)),
    StableHlo.binary main_v7 main_v26 main_v27 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v28 (broadcastInDim S850000 ![] bcast_S_S850000 : (⟨S_, .i32⟩ : BufTy).Contents (Elt F) → (⟨S850000, .i32⟩ : BufTy).Contents (Elt F)),
    StableHlo.binary main_v7 main_v28 main_v29 (addi : (⟨S850000, .i32⟩ : BufTy).Contents (Elt F) → (⟨S850000, .i32⟩ : BufTy).Contents (Elt F) → (⟨S850000, .i32⟩ : BufTy).Contents (Elt F)),
    StableHlo.ternary main_v27 main_v29 main_v7 main_v30 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v30 main_v31 (broadcastInDim S850000x1 ![0] bcast_S850000_S850000x1_0 : (⟨S850000, .i32⟩ : BufTy).Contents (Elt F) → (⟨S850000x1, .i32⟩ : BufTy).Contents (Elt F)),
    StableHlo.binary main_v18 main_v31 main_v32 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v25 main_v32 main_v33 (mulf : (⟨S850000, .f32⟩ : BufTy).Contents (Elt F) → (⟨S850000, .f32⟩ : BufTy).Contents (Elt F) → (⟨S850000, .f32⟩ : BufTy).Contents (Elt F)) ]
/-- The first layer. -/
abbrev segB : List (HloOp τ sig (Elt F)) :=
  [ StableHlo.nullary main_c_8 (constantI S_ 32 0#32),
    StableHlo.unary main_c_8 main_v34 (broadcastInDim S850000 ![] bcast_S_S850000 : (⟨S_, .i32⟩ : BufTy).Contents (Elt F) → (⟨S850000, .i32⟩ : BufTy).Contents (Elt F)),
    StableHlo.binary main_v6 main_v34 main_v35 (cmpi .slt : (⟨S850000, .i32⟩ : BufTy).Contents (Elt F) → (⟨S850000, .i32⟩ : BufTy).Contents (Elt F) → (⟨S850000, .i1⟩ : BufTy).Contents (Elt F)),
    StableHlo.nullary main_c_9 (constantI S_ 32 50000#32),
    StableHlo.unary main_c_9 main_v36 (broadcastInDim S850000 ![] bcast_S_S850000 : (⟨S_, .i32⟩ : BufTy).Contents (Elt F) → (⟨S850000, .i32⟩ : BufTy).Contents (Elt F)),
    StableHlo.binary main_v6 main_v36 main_v37 (addi : (⟨S850000, .i32⟩ : BufTy).Contents (Elt F) → (⟨S850000, .i32⟩ : BufTy).Contents (Elt F) → (⟨S850000, .i32⟩ : BufTy).Contents (Elt F)),
    StableHlo.ternary main_v35 main_v37 main_v6 main_v38 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v38 main_v39 (broadcastInDim S850000x1 ![0] bcast_S850000_S850000x1_0 : (⟨S850000, .i32⟩ : BufTy).Contents (Elt F) → (⟨S850000x1, .i32⟩ : BufTy).Contents (Elt F)),
    StableHlo.binary main_v4 main_v39 main_v40 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v33 main_v41 (broadcastInDim S850000x1 ![0] bcast_S850000_S850000x1_0 : (⟨S850000, .f32⟩ : BufTy).Contents (Elt F) → (⟨S850000x1, .f32⟩ : BufTy).Contents (Elt F)),
    StableHlo.unary main_v41 main_v42 (broadcastInDim S850000x128 ![0, 1] bcast_S850000x1_S850000x128_0_1 : (⟨S850000x1, .f32⟩ : BufTy).Contents (Elt F) → (⟨S850000x128, .f32⟩ : BufTy).Contents (Elt F)),
    StableHlo.binary main_v40 main_v42 main_v43 (mulf : (⟨S850000x128, .f32⟩ : BufTy).Contents (Elt F) → (⟨S850000x128, .f32⟩ : BufTy).Contents (Elt F) → (⟨S850000x128, .f32⟩ : BufTy).Contents (Elt F)),
    StableHlo.nullary main_cst_10 (constant S_ .f32 0x00000000#32),
    StableHlo.unary main_cst_10 main_v44 (broadcastInDim S50000x128 ![] bcast_S_S50000x128 : (⟨S_, .f32⟩ : BufTy).Contents (Elt F) → (⟨S50000x128, .f32⟩ : BufTy).Contents (Elt F)),
    StableHlo.unary main_v7 main_v45 (broadcastInDim S850000x1 ![0] bcast_S850000_S850000x1_0 : (⟨S850000, .i32⟩ : BufTy).Contents (Elt F) → (⟨S850000x1, .i32⟩ : BufTy).Contents (Elt F)),
    StableHlo.ternary main_v44 main_v45 main_v43 main_v46 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg3 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v46 main_v48 main_v49 (addf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3C23D70A#32),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x128, .f32⟩) (broadcastInDim S50000x128 ![] bcast_S_S50000x128),
    StableHlo.TRef.binary (.of main_v49 : StableHlo.TRef sig ⟨S50000x128, .f32⟩) (.of main_call2_v0 : StableHlo.TRef sig ⟨S50000x128, .f32⟩) (.of main_call2_v1 : StableHlo.TRef sig ⟨S50000x128, .i1⟩) (cmpf .oge),
    StableHlo.TRef.unary (.of main_cst_11 : StableHlo.TRef sig ⟨S_, .f32⟩) (.of main_call2_v2 : StableHlo.TRef sig ⟨S_, .f32⟩) id,
    StableHlo.TRef.unary (.of main_call2_v2 : StableHlo.TRef sig ⟨S_, .f32⟩) (.of main_call2_v3 : StableHlo.TRef sig ⟨S50000x128, .f32⟩) (broadcastInDim S50000x128 ![] bcast_S_S50000x128),
    StableHlo.TRef.binary (.of main_call2_v3 : StableHlo.TRef sig ⟨S50000x128, .f32⟩) (.of main_v49 : StableHlo.TRef sig ⟨S50000x128, .f32⟩) (.of main_call2_v4 : StableHlo.TRef sig ⟨S50000x128, .f32⟩) mulf,
    StableHlo.TRef.ternary (.of main_call2_v1 : StableHlo.TRef sig ⟨S50000x128, .i1⟩) (.of main_v49 : StableHlo.TRef sig ⟨S50000x128, .f32⟩) (.of main_call2_v4 : StableHlo.TRef sig ⟨S50000x128, .f32⟩) (.of main_v50 : StableHlo.TRef sig ⟨S50000x128, .f32⟩) select ]
/-- The second product, and the ids and the edge coefficients again. -/
abbrev segC : List (HloOp τ sig (Elt F)) :=
  [ StableHlo.binary main_v50 main_arg4 main_v51 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_v52 (iotaInDim S50000 32 0),
    StableHlo.binary main_v1 main_v52 main_v53 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v52 main_v54 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_12 (constant S_ .f32 0x3F800000#32),
    StableHlo.unary main_cst_12 main_v55 (broadcastInDim S850000 ![] bcast_S_S850000 : (⟨S_, .f32⟩ : BufTy).Contents (Elt F) → (⟨S850000, .f32⟩ : BufTy).Contents (Elt F)),
    StableHlo.nullary main_cst_13 (constant S_ .f32 0x00000000#32),
    StableHlo.unary main_cst_13 main_v56 (broadcastInDim S50000 ![] bcast_S_S50000 : (⟨S_, .f32⟩ : BufTy).Contents (Elt F) → (⟨S50000, .f32⟩ : BufTy).Contents (Elt F)),
    StableHlo.unary main_v54 main_v57 (broadcastInDim S850000x1 ![0] bcast_S850000_S850000x1_0 : (⟨S850000, .i32⟩ : BufTy).Contents (Elt F) → (⟨S850000x1, .i32⟩ : BufTy).Contents (Elt F)),
    StableHlo.ternary main_v56 main_v57 main_v55 main_v58 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_14 (constant S_ .f32 0x00000000#32),
    StableHlo.unary main_cst_14 main_v59 (broadcastInDim S50000 ![] bcast_S_S50000 : (⟨S_, .f32⟩ : BufTy).Contents (Elt F) → (⟨S50000, .f32⟩ : BufTy).Contents (Elt F)),
    StableHlo.binary main_v58 main_v59 main_v60 (cmpf .ogt : (⟨S50000, .f32⟩ : BufTy).Contents (Elt F) → (⟨S50000, .f32⟩ : BufTy).Contents (Elt F) → (⟨S50000, .i1⟩ : BufTy).Contents (Elt F)),
    StableHlo.nullary main_cst_15 (constant S_ .f32 0x3F800000#32),
    StableHlo.TRef.unary (.of main_cst_15 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S50000, .f32⟩) (broadcastInDim S50000 ![] bcast_S_S50000),
    StableHlo.TRef.ternary (.of main_v60 : StableHlo.TRef sig ⟨S50000, .i1⟩) (.of main_v58 : StableHlo.TRef sig ⟨S50000, .f32⟩) (.of main_call3_v1 : StableHlo.TRef sig ⟨S50000, .f32⟩) (.of main_v61 : StableHlo.TRef sig ⟨S50000, .f32⟩) select,
    StableHlo.nullary main_cst_16 (constant S_ .f32 0x00000000#32),
    StableHlo.unary main_cst_16 main_v62 (broadcastInDim S50000 ![] bcast_S_S50000 : (⟨S_, .f32⟩ : BufTy).Contents (Elt F) → (⟨S50000, .f32⟩ : BufTy).Contents (Elt F)),
    StableHlo.binary main_v58 main_v62 main_v63 (cmpf .ogt : (⟨S50000, .f32⟩ : BufTy).Contents (Elt F) → (⟨S50000, .f32⟩ : BufTy).Contents (Elt F) → (⟨S50000, .i1⟩ : BufTy).Contents (Elt F)),
    StableHlo.unary main_v61 main_v64 (Host.rsqrt : (⟨S50000, .f32⟩ : BufTy).Contents (Elt F) → (⟨S50000, .f32⟩ : BufTy).Contents (Elt F)),
    StableHlo.nullary main_cst_17 (constant S_ .f32 0x00000000#32),
    StableHlo.TRef.unary (.of main_cst_17 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S50000, .f32⟩) (broadcastInDim S50000 ![] bcast_S_S50000),
    StableHlo.TRef.ternary (.of main_v63 : StableHlo.TRef sig ⟨S50000, .i1⟩) (.of main_v64 : StableHlo.TRef sig ⟨S50000, .f32⟩) (.of main_call4_v1 : StableHlo.TRef sig ⟨S50000, .f32⟩) (.of main_v65 : StableHlo.TRef sig ⟨S50000, .f32⟩) select,
    StableHlo.nullary main_c_18 (constantI S_ 32 0#32),
    StableHlo.unary main_c_18 main_v66 (broadcastInDim S850000 ![] bcast_S_S850000 : (⟨S_, .i32⟩ : BufTy).Contents (Elt F) → (⟨S850000, .i32⟩ : BufTy).Contents (Elt F)),
    StableHlo.binary main_v53 main_v66 main_v67 (cmpi .slt : (⟨S850000, .i32⟩ : BufTy).Contents (Elt F) → (⟨S850000, .i32⟩ : BufTy).Contents (Elt F) → (⟨S850000, .i1⟩ : BufTy).Contents (Elt F)),
    StableHlo.nullary main_c_19 (constantI S_ 32 50000#32),
    StableHlo.unary main_c_19 main_v68 (broadcastInDim S850000 ![] bcast_S_S850000 : (⟨S_, .i32⟩ : BufTy).Contents (Elt F) → (⟨S850000, .i32⟩ : BufTy).Contents (Elt F)),
    StableHlo.binary main_v53 main_v68 main_v69 (addi : (⟨S850000, .i32⟩ : BufTy).Contents (Elt F) → (⟨S850000, .i32⟩ : BufTy).Contents (Elt F) → (⟨S850000, .i32⟩ : BufTy).Contents (Elt F)),
    StableHlo.ternary main_v67 main_v69 main_v53 main_v70 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v70 main_v71 (broadcastInDim S850000x1 ![0] bcast_S850000_S850000x1_0 : (⟨S850000, .i32⟩ : BufTy).Contents (Elt F) → (⟨S850000x1, .i32⟩ : BufTy).Contents (Elt F)),
    StableHlo.binary main_v65 main_v71 main_v72 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_20 (constantI S_ 32 0#32),
    StableHlo.unary main_c_20 main_v73 (broadcastInDim S850000 ![] bcast_S_S850000 : (⟨S_, .i32⟩ : BufTy).Contents (Elt F) → (⟨S850000, .i32⟩ : BufTy).Contents (Elt F)),
    StableHlo.binary main_v54 main_v73 main_v74 (cmpi .slt : (⟨S850000, .i32⟩ : BufTy).Contents (Elt F) → (⟨S850000, .i32⟩ : BufTy).Contents (Elt F) → (⟨S850000, .i1⟩ : BufTy).Contents (Elt F)),
    StableHlo.nullary main_c_21 (constantI S_ 32 50000#32),
    StableHlo.unary main_c_21 main_v75 (broadcastInDim S850000 ![] bcast_S_S850000 : (⟨S_, .i32⟩ : BufTy).Contents (Elt F) → (⟨S850000, .i32⟩ : BufTy).Contents (Elt F)),
    StableHlo.binary main_v54 main_v75 main_v76 (addi : (⟨S850000, .i32⟩ : BufTy).Contents (Elt F) → (⟨S850000, .i32⟩ : BufTy).Contents (Elt F) → (⟨S850000, .i32⟩ : BufTy).Contents (Elt F)),
    StableHlo.ternary main_v74 main_v76 main_v54 main_v77 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v77 main_v78 (broadcastInDim S850000x1 ![0] bcast_S850000_S850000x1_0 : (⟨S850000, .i32⟩ : BufTy).Contents (Elt F) → (⟨S850000x1, .i32⟩ : BufTy).Contents (Elt F)),
    StableHlo.binary main_v65 main_v78 main_v79 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v72 main_v79 main_v80 (mulf : (⟨S850000, .f32⟩ : BufTy).Contents (Elt F) → (⟨S850000, .f32⟩ : BufTy).Contents (Elt F) → (⟨S850000, .f32⟩ : BufTy).Contents (Elt F)) ]
/-- The second layer. -/
abbrev segD : List (HloOp τ sig (Elt F)) :=
  [ StableHlo.nullary main_c_22 (constantI S_ 32 0#32),
    StableHlo.unary main_c_22 main_v81 (broadcastInDim S850000 ![] bcast_S_S850000 : (⟨S_, .i32⟩ : BufTy).Contents (Elt F) → (⟨S850000, .i32⟩ : BufTy).Contents (Elt F)),
    StableHlo.binary main_v53 main_v81 main_v82 (cmpi .slt : (⟨S850000, .i32⟩ : BufTy).Contents (Elt F) → (⟨S850000, .i32⟩ : BufTy).Contents (Elt F) → (⟨S850000, .i1⟩ : BufTy).Contents (Elt F)),
    StableHlo.nullary main_c_23 (constantI S_ 32 50000#32),
    StableHlo.unary main_c_23 main_v83 (broadcastInDim S850000 ![] bcast_S_S850000 : (⟨S_, .i32⟩ : BufTy).Contents (Elt F) → (⟨S850000, .i32⟩ : BufTy).Contents (Elt F)),
    StableHlo.binary main_v53 main_v83 main_v84 (addi : (⟨S850000, .i32⟩ : BufTy).Contents (Elt F) → (⟨S850000, .i32⟩ : BufTy).Contents (Elt F) → (⟨S850000, .i32⟩ : BufTy).Contents (Elt F)),
    StableHlo.ternary main_v82 main_v84 main_v53 main_v85 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v85 main_v86 (broadcastInDim S850000x1 ![0] bcast_S850000_S850000x1_0 : (⟨S850000, .i32⟩ : BufTy).Contents (Elt F) → (⟨S850000x1, .i32⟩ : BufTy).Contents (Elt F)),
    StableHlo.binary main_v51 main_v86 main_v87 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v80 main_v88 (broadcastInDim S850000x1 ![0] bcast_S850000_S850000x1_0 : (⟨S850000, .f32⟩ : BufTy).Contents (Elt F) → (⟨S850000x1, .f32⟩ : BufTy).Contents (Elt F)),
    StableHlo.unary main_v88 main_v89 (broadcastInDim S850000x128 ![0, 1] bcast_S850000x1_S850000x128_0_1 : (⟨S850000x1, .f32⟩ : BufTy).Contents (Elt F) → (⟨S850000x128, .f32⟩ : BufTy).Contents (Elt F)),
    StableHlo.binary main_v87 main_v89 main_v90 (mulf : (⟨S850000x128, .f32⟩ : BufTy).Contents (Elt F) → (⟨S850000x128, .f32⟩ : BufTy).Contents (Elt F) → (⟨S850000x128, .f32⟩ : BufTy).Contents (Elt F)),
    StableHlo.nullary main_cst_24 (constant S_ .f32 0x00000000#32),
    StableHlo.unary main_cst_24 main_v91 (broadcastInDim S50000x128 ![] bcast_S_S50000x128 : (⟨S_, .f32⟩ : BufTy).Contents (Elt F) → (⟨S50000x128, .f32⟩ : BufTy).Contents (Elt F)),
    StableHlo.unary main_v54 main_v92 (broadcastInDim S850000x1 ![0] bcast_S850000_S850000x1_0 : (⟨S850000, .i32⟩ : BufTy).Contents (Elt F) → (⟨S850000x1, .i32⟩ : BufTy).Contents (Elt F)),
    StableHlo.ternary main_v91 main_v92 main_v90 main_v93 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg5 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S50000x128 ![0, 1] bcast_S1x128_S50000x128_0_1 : (⟨S1x128, .f32⟩ : BufTy).Contents (Elt F) → (⟨S50000x128, .f32⟩ : BufTy).Contents (Elt F)),
    StableHlo.binary main_v93 main_v95 main_v96 (addf : (⟨S50000x128, .f32⟩ : BufTy).Contents (Elt F) → (⟨S50000x128, .f32⟩ : BufTy).Contents (Elt F) → (⟨S50000x128, .f32⟩ : BufTy).Contents (Elt F)),
    StableHlo.nullary main_cst_25 (constant S_ .f32 0x3C23D70A#32),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S50000x128, .f32⟩) (broadcastInDim S50000x128 ![] bcast_S_S50000x128),
    StableHlo.TRef.binary (.of main_v96 : StableHlo.TRef sig ⟨S50000x128, .f32⟩) (.of main_call5_v0 : StableHlo.TRef sig ⟨S50000x128, .f32⟩) (.of main_call5_v1 : StableHlo.TRef sig ⟨S50000x128, .i1⟩) (cmpf .oge),
    StableHlo.TRef.unary (.of main_cst_25 : StableHlo.TRef sig ⟨S_, .f32⟩) (.of main_call5_v2 : StableHlo.TRef sig ⟨S_, .f32⟩) id,
    StableHlo.TRef.unary (.of main_call5_v2 : StableHlo.TRef sig ⟨S_, .f32⟩) (.of main_call5_v3 : StableHlo.TRef sig ⟨S50000x128, .f32⟩) (broadcastInDim S50000x128 ![] bcast_S_S50000x128),
    StableHlo.TRef.binary (.of main_call5_v3 : StableHlo.TRef sig ⟨S50000x128, .f32⟩) (.of main_v96 : StableHlo.TRef sig ⟨S50000x128, .f32⟩) (.of main_call5_v4 : StableHlo.TRef sig ⟨S50000x128, .f32⟩) mulf,
    StableHlo.TRef.ternary (.of main_call5_v1 : StableHlo.TRef sig ⟨S50000x128, .i1⟩) (.of main_v96 : StableHlo.TRef sig ⟨S50000x128, .f32⟩) (.of main_call5_v4 : StableHlo.TRef sig ⟨S50000x128, .f32⟩) (.of main_v97 : StableHlo.TRef sig ⟨S50000x128, .f32⟩) select ]
/-- The mean of the rows. -/
abbrev segE : List (HloOp τ sig (Elt F)) :=
  [ StableHlo.nullary main_cst_26 (constant S_ .f32 0x00000000#32),
    StableHlo.binary main_v97 main_cst_26 main_v98 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_27 (constant S_ .f32 0x47435000#32),
    StableHlo.unary main_cst_27 main_v99 (broadcastInDim S128 ![] bcast_S_S128 : (⟨S_, .f32⟩ : BufTy).Contents (Elt F) → (⟨S128, .f32⟩ : BufTy).Contents (Elt F)),
    StableHlo.binary main_v98 main_v99 main_v100 (Host.divf : (⟨S128, .f32⟩ : BufTy).Contents (Elt F) → (⟨S128, .f32⟩ : BufTy).Contents (Elt F) → (⟨S128, .f32⟩ : BufTy).Contents (Elt F)),
    StableHlo.unary main_v100 main_v101 (broadcastInDim S1x128 ![1] bcast_S128_S1x128_1 : (⟨S128, .f32⟩ : BufTy).Contents (Elt F) → (⟨S1x128, .f32⟩ : BufTy).Contents (Elt F)) ]

/-- The five segments, in order, are the program's operations. -/
theorem ops_segments : (ops : List (HloOp τ sig (Elt F))) = segA ++ (segB ++ (segC ++ (segD ++ segE))) := rfl

/-- A list of node ids as a column. -/
abbrev col (x : Cert.KernelIdeal.Graph.A F S850000 .f32) : Cert.KernelIdeal.Graph.A F S850000x1 .f32 :=
  (broadcastInDim S850000x1 ![0] bcast_S850000_S850000x1_0 : Cert.KernelIdeal.Graph.A F S850000 .f32 → Cert.KernelIdeal.Graph.A F S850000x1 .f32) x
/-- 800000 edge ends followed by the 50000 self loops. -/
abbrev withLoops (a : Cert.KernelIdeal.Graph.A F S800000 .i32) : Cert.KernelIdeal.Graph.A F S850000 .i32 :=
  (fun a b => concatenate S850000 0 [⟨S800000, a⟩, ⟨S50000, b⟩] concatenates_S800000_S50000_S850000_d0 : Cert.KernelIdeal.Graph.A F S800000 .i32 → Cert.KernelIdeal.Graph.A F S50000 .i32 → Cert.KernelIdeal.Graph.A F S850000 .i32)
    a (iotaInDim S50000 32 0)

/-! ## The first segment -/

theorem a_sources (V : Valuation τ sig (Elt F)) : after segA V (Proc.devRef .tc main_v6) = Cert.KernelIdeal.Graph.sources (V (Proc.devRef .tc main_arg1)) := by
  after_results_simp
  rfl
theorem a_targets (V : Valuation τ sig (Elt F)) : after segA V (Proc.devRef .tc main_v7) = Cert.KernelIdeal.Graph.targets (V (Proc.devRef .tc main_arg1)) := by
  after_results_simp
  rfl
theorem a_coefficients (V : Valuation τ sig (Elt F)) :
    col (after segA V (Proc.devRef .tc main_v33))
      = Cert.KernelIdeal.Graph.coefficients (Cert.KernelIdeal.Graph.sources (V (Proc.devRef .tc main_arg1))) (Cert.KernelIdeal.Graph.targets (V (Proc.devRef .tc main_arg1))) := by
  after_results_simp
  rfl
theorem a_ends0 (V : Valuation τ sig (Elt F)) : withLoops (after segA V (Proc.devRef .tc main_v1)) = Cert.KernelIdeal.Graph.sources (V (Proc.devRef .tc main_arg1)) := by
  after_results_simp
  rfl
theorem a_ends1 (V : Valuation τ sig (Elt F)) : withLoops (after segA V (Proc.devRef .tc main_v3)) = Cert.KernelIdeal.Graph.targets (V (Proc.devRef .tc main_arg1)) := by
  after_results_simp
  rfl
theorem a_product (V : Valuation τ sig (Elt Idealize.ShloMosaic.Ideal)) :
    after segA V (Proc.devRef .tc main_v4) = Cert.KernelIdeal.Graph.product 50000 768 128 (V (Proc.devRef .tc main_arg0)) (V (Proc.devRef .tc main_arg2)) := by
  after_results_simp
  rfl
theorem a_keeps_arg3 (V : Valuation τ sig (Elt F)) : after segA V (Proc.devRef .tc main_arg3) = V (Proc.devRef .tc main_arg3) := by
  after_results_simp
theorem a_keeps_arg4 (V : Valuation τ sig (Elt F)) : after segA V (Proc.devRef .tc main_arg4) = V (Proc.devRef .tc main_arg4) := by
  after_results_simp
theorem a_keeps_arg5 (V : Valuation τ sig (Elt F)) : after segA V (Proc.devRef .tc main_arg5) = V (Proc.devRef .tc main_arg5) := by
  after_results_simp

/-! ## The second segment -/

theorem b_layer (V : Valuation τ sig (Elt F)) :
    after segB V (Proc.devRef .tc main_v50) = Cert.KernelIdeal.Graph.layer (V (Proc.devRef .tc main_v4)) (V (Proc.devRef .tc main_v6)) (V (Proc.devRef .tc main_v7)) (col (V (Proc.devRef .tc main_v33))) (V (Proc.devRef .tc main_arg3)) := by
  after_results_simp
  rfl
theorem b_keeps_v1 (V : Valuation τ sig (Elt F)) : after segB V (Proc.devRef .tc main_v1) = V (Proc.devRef .tc main_v1) := by
  after_results_simp
theorem b_keeps_v3 (V : Valuation τ sig (Elt F)) : after segB V (Proc.devRef .tc main_v3) = V (Proc.devRef .tc main_v3) := by
  after_results_simp
theorem b_keeps_arg4 (V : Valuation τ sig (Elt F)) : after segB V (Proc.devRef .tc main_arg4) = V (Proc.devRef .tc main_arg4) := by
  after_results_simp
theorem b_keeps_arg5 (V : Valuation τ sig (Elt F)) : after segB V (Proc.devRef .tc main_arg5) = V (Proc.devRef .tc main_arg5) := by
  after_results_simp

/-! ## The third segment -/

theorem c_product (V : Valuation τ sig (Elt Idealize.ShloMosaic.Ideal)) :
    after segC V (Proc.devRef .tc main_v51) = Cert.KernelIdeal.Graph.product 50000 128 128 (V (Proc.devRef .tc main_v50)) (V (Proc.devRef .tc main_arg4)) := by
  after_results_simp
  rfl
theorem c_sources (V : Valuation τ sig (Elt F)) : after segC V (Proc.devRef .tc main_v53) = withLoops (V (Proc.devRef .tc main_v1)) := by
  after_results_simp
  rfl
theorem c_targets (V : Valuation τ sig (Elt F)) : after segC V (Proc.devRef .tc main_v54) = withLoops (V (Proc.devRef .tc main_v3)) := by
  after_results_simp
  rfl
theorem c_coefficients (V : Valuation τ sig (Elt F)) :
    col (after segC V (Proc.devRef .tc main_v80)) = Cert.KernelIdeal.Graph.coefficients (withLoops (V (Proc.devRef .tc main_v1))) (withLoops (V (Proc.devRef .tc main_v3))) := by
  after_results_simp
  rfl
theorem c_keeps_arg5 (V : Valuation τ sig (Elt F)) : after segC V (Proc.devRef .tc main_arg5) = V (Proc.devRef .tc main_arg5) := by
  after_results_simp

/-! ## The fourth and fifth segments -/

theorem d_layer (V : Valuation τ sig (Elt F)) :
    after segD V (Proc.devRef .tc main_v97) = Cert.KernelIdeal.Graph.layer (V (Proc.devRef .tc main_v51)) (V (Proc.devRef .tc main_v53)) (V (Proc.devRef .tc main_v54)) (col (V (Proc.devRef .tc main_v80))) (V (Proc.devRef .tc main_arg5)) := by
  after_results_simp
  rfl
theorem e_mean (V : Valuation τ sig (Elt F)) : after segE V (Proc.devRef .tc main_v101) = Cert.KernelIdeal.Graph.meanRows (V (Proc.devRef .tc main_v97)) := by
  after_results_simp
  rfl

/-! ## Composed -/

/-- The fold of the program's operations, read at the result buffer, is the network function of the contents of the
    six arguments. -/
theorem result_eq (V : Valuation τ sig (Elt Idealize.ShloMosaic.Ideal)) :
    after ops V (Proc.devRef .tc main_v101)
      = Cert.KernelIdeal.Graph.network (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_segments, after_two, after_two, after_two, after_two]
  rw [e_mean, d_layer, c_product, c_sources, c_targets, c_coefficients, c_keeps_arg5,
    b_layer, b_keeps_v1, b_keeps_v3, b_keeps_arg4, b_keeps_arg5,
    a_product, a_sources, a_targets, a_coefficients, a_ends0, a_ends1, a_keeps_arg3, a_keeps_arg4, a_keeps_arg5]
  rfl

end Cert.ReferenceIdeal.HandValue

end
-- ==== Proof.lean ====
/-
  A two-layer graph convolution with a leaky rectifier and a mean over the nodes: the kernel against its reference,
  equal as extended reals.

  Both programs compute, from features x (50000 × 768), an edge list e (2 × 800000), weights W1, W2 and biases b1, b2,
      mean over rows of  σ(Â · (σ(Â · (x W1) + b1) W2) + b2),
  where σ is the leaky rectifier and Â is the symmetrically normalized adjacency with self loops, applied as a gather at
  the sources, a scaling by the edge coefficient, and a scatter-add at the targets. The kernel computes the two dense
  products x W1 and h W2 in launches tiled over the rows, on operands narrowed to a shorter float format and accumulated
  from zero; on the extended reals the narrowing is the identity and a row tile of a product is the product of the row
  tile, so each launch leaves the plain product of its two whole arrays — the reference's dot_general. Everything else is
  the same chain of host operations on both sides (the reference recomputes the edge coefficients for the second layer
  by the same operations of the same edge list). So both runs end with the result at ONE function, `network`, of the
  argument arrays, and the arguments agree.

  The frames of the kernel and of its idealization are the generated ones; the reference's frame is its run with the
  result dropped. The idealization rewrote no operation, so there is nothing to preserve beyond the text itself.
-/
import proofs.«116063_j71648644432367_1_alg».proof.Defs
import proofs.«116063_j71648644432367_1_alg».proof.Proof.Gen.Kernel
import proofs.«116063_j71648644432367_1_alg».proof.Proof.Gen.Kernel.Frame
import proofs.«116063_j71648644432367_1_alg».proof.Proof.Gen.KernelIdeal
import proofs.«116063_j71648644432367_1_alg».proof.Proof.Gen.KernelIdeal.Frame
import proofs.«116063_j71648644432367_1_alg».proof.Proof.Gen.ReferenceIdeal
import proofs.«116063_j71648644432367_1_alg».proof.Proof.Gen.Pre_finite_inputs
import proofs.«116063_j71648644432367_1_alg».proof.Proof.KernelRun
import proofs.«116063_j71648644432367_1_alg».proof.Proof.KernelValue
import proofs.«116063_j71648644432367_1_alg».proof.Proof.RefRun
import proofs.«116063_j71648644432367_1_alg».proof.Proof.RefNetwork
import Idealize.ShloMosaic.Adequacy
import Idealize.ShloMosaic.Init

noncomputable section

namespace Cert.Proof

open Idealize.ShloMosaic Idealize.ShloMosaic.TcCoe Idealize.SL.Sem

/-- The kernel as printed terminates without a fault and leaves its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference terminates with every buffer at the fold of its operations over the launch contents; no operation
    writes an argument. -/
theorem frame_referenceIdeal : Cert.frame_ReferenceIdeal := fun m ρ _ =>
  (θ_run Cert.ReferenceIdeal.defs _ _).mono
    (fun r h c => ⟨(h c Cert.ReferenceIdeal.main_arg0).trans (Cert.ReferenceIdeal.HandRun.after_main_arg0 _),
      (h c Cert.ReferenceIdeal.main_arg1).trans (Cert.ReferenceIdeal.HandRun.after_main_arg1 _),
      (h c Cert.ReferenceIdeal.main_arg2).trans (Cert.ReferenceIdeal.HandRun.after_main_arg2 _),
      (h c Cert.ReferenceIdeal.main_arg3).trans (Cert.ReferenceIdeal.HandRun.after_main_arg3 _),
      (h c Cert.ReferenceIdeal.main_arg4).trans (Cert.ReferenceIdeal.HandRun.after_main_arg4 _),
      (h c Cert.ReferenceIdeal.main_arg5).trans (Cert.ReferenceIdeal.HandRun.after_main_arg5 _)⟩)
    (Cert.ReferenceIdeal.HandRun.run (F := Idealize.ShloMosaic.Ideal) m ρ)

/-- The idealization rewrote nothing. -/
theorem preserves : Cert.preserves_Kernel_KernelIdeal := trivial

/-- Both idealized programs end with the result at `network` of the arguments, which agree. -/
theorem algebraic : Cert.algebraic_KernelIdeal_ReferenceIdeal := by
  intro m ρ m' ρ' _ hagree
  refine ⟨fun c => Cert.KernelIdeal.Graph.network (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Walk.result_eq m ρ c), (h c).2⟩)
      (Cert.KernelIdeal.Named.run (F := Idealize.ShloMosaic.Ideal) m ρ)
  · refine (θ_run Cert.ReferenceIdeal.defs _ _).mono (fun r h c => ⟨?_,
      (h c Cert.ReferenceIdeal.main_arg0).trans (Cert.ReferenceIdeal.HandRun.after_main_arg0 _),
      (h c Cert.ReferenceIdeal.main_arg1).trans (Cert.ReferenceIdeal.HandRun.after_main_arg1 _),
      (h c Cert.ReferenceIdeal.main_arg2).trans (Cert.ReferenceIdeal.HandRun.after_main_arg2 _),
      (h c Cert.ReferenceIdeal.main_arg3).trans (Cert.ReferenceIdeal.HandRun.after_main_arg3 _),
      (h c Cert.ReferenceIdeal.main_arg4).trans (Cert.ReferenceIdeal.HandRun.after_main_arg4 _),
      (h c Cert.ReferenceIdeal.main_arg5).trans (Cert.ReferenceIdeal.HandRun.after_main_arg5 _)⟩)
      (Cert.ReferenceIdeal.HandRun.run (F := Idealize.ShloMosaic.Ideal) m' ρ')
    obtain ⟨e0, e1, e2, e3, e4, e5⟩ := hagree c
    refine (h c Cert.ReferenceIdeal.main_v101).trans ((Cert.ReferenceIdeal.HandValue.result_eq _).trans ?_)
    show Cert.KernelIdeal.Graph.network (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
